-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) (main_arg1 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  main_v8
-- ==== Kernel.lean ====
abbrev S4x4096x4096 : Shape := ⟨3, ![4, 4096, 4096]⟩
abbrev S16384x4096 : Shape := ⟨2, ![16384, 4096]⟩
abbrev S16x4096 : Shape := ⟨2, ![16, 4096]⟩
abbrev S512x4096 : Shape := ⟨2, ![512, 4096]⟩
abbrev S8x4096 : Shape := ⟨2, ![8, 4096]⟩
abbrev S4096 : Shape := ⟨1, ![4096]⟩
abbrev S1x4096 : Shape := ⟨2, ![1, 4096]⟩
abbrev S32x128 : Shape := ⟨2, ![32, 128]⟩
abbrev S_ : Shape := ⟨0, ![]⟩
abbrev S32 : Shape := ⟨1, ![32]⟩
abbrev S256x4096 : Shape := ⟨2, ![256, 4096]⟩

abbrev nBuf : Space → Nat
  | .hbm => 84
  | .vmem => 24
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16384x4096, .f32⟩
  | .hbm, ⟨3, _⟩ => ⟨S16x4096, .f32⟩
  | .hbm, ⟨4, _⟩ => ⟨S16x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S4096, .f32⟩
  | .hbm, ⟨15, _⟩ => ⟨S32x128, .f32⟩
  | .hbm, ⟨16, _⟩ => ⟨S_, .f32⟩
  | .hbm, ⟨17, _⟩ => ⟨S32, .f32⟩
  | .hbm, ⟨18, _⟩ => ⟨S32x128, .f32⟩
  | .hbm, ⟨19, _⟩ => ⟨S_, .f32⟩
  | .hbm, ⟨20, _⟩ => ⟨S32, .f32⟩
  | .hbm, ⟨21, _⟩ => ⟨S32, .i1⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x128, .f32⟩
  | .hbm, ⟨36, _⟩ => ⟨S4096, .f32⟩
  | .hbm, ⟨37, _⟩ => ⟨S1x4096, .f32⟩
  | .hbm, ⟨38, _⟩ => ⟨S32x128, .f32⟩
  | .hbm, ⟨39, _⟩ => ⟨S4096, .f32⟩
  | .hbm, ⟨40, _⟩ => ⟨S1x4096, .f32⟩
  | .hbm, ⟨41, _⟩ => ⟨S16384x4096, .f32⟩
  | .hbm, ⟨42, _⟩ => ⟨S4x4096x4096, .f32⟩
  | .hbm, ⟨43, _⟩ => ⟨S16384x4096, .f32⟩
  | .hbm, ⟨44, _⟩ => ⟨S16x4096, .f32⟩
  | .hbm, ⟨45, _⟩ => ⟨S16x4096, .f32⟩
  | .hbm, ⟨46, _⟩ => ⟨S1x4096, .f32⟩
  | .hbm, ⟨47, _⟩ => ⟨S4096, .f32⟩
  | .hbm, ⟨48, _⟩ => ⟨S1x4096, .f32⟩
  | .hbm, ⟨49, _⟩ => ⟨S4096, .f32⟩
  | .hbm, ⟨50, _⟩ => ⟨S4096, .f32⟩
  | .hbm, ⟨51, _⟩ => ⟨S1x4096, .f32⟩
  | .hbm, ⟨52, _⟩ => ⟨S4096, .f32⟩
  | .hbm, ⟨53, _⟩ => ⟨S1x4096, .f32⟩
  | .hbm, ⟨54, _⟩ => ⟨S4096, .f32⟩
  | .hbm, ⟨55, _⟩ => ⟨S4096, .f32⟩
  | .hbm, ⟨56, _⟩ => ⟨S32x128, .f32⟩
  | .hbm, ⟨57, _⟩ => ⟨S_, .f32⟩
  | .hbm, ⟨58, _⟩ => ⟨S32, .f32⟩
  | .hbm, ⟨59, _⟩ => ⟨S32x128, .f32⟩
  | .hbm, ⟨60, _⟩ => ⟨S_, .f32⟩
  | .hbm, ⟨61, _⟩ => ⟨S32, .f32⟩
  | .hbm, ⟨62, _⟩ => ⟨S32, .i1⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S32x128, .f32⟩
  | .hbm, ⟨77, _⟩ => ⟨S4096, .f32⟩
  | .hbm, ⟨78, _⟩ => ⟨S1x4096, .f32⟩
  | .hbm, ⟨79, _⟩ => ⟨S32x128, .f32⟩
  | .hbm, ⟨80, _⟩ => ⟨S4096, .f32⟩
  | .hbm, ⟨81, _⟩ => ⟨S1x4096, .f32⟩
  | .hbm, ⟨82, _⟩ => ⟨S16384x4096, .f32⟩
  | .hbm, ⟨83, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S512x4096, .f32⟩
  | .local _ .vmem, ⟨13, _⟩ => ⟨S512x4096, .f32⟩
  | .local _ .vmem, ⟨14, _⟩ => ⟨S8x4096, .f32⟩
  | .local _ .vmem, ⟨15, _⟩ => ⟨S8x4096, .f32⟩
  | .local _ .vmem, ⟨16, _⟩ => ⟨S8x4096, .f32⟩
  | .local _ .vmem, ⟨17, _⟩ => ⟨S8x4096, .f32⟩
  | .local _ .vmem, ⟨18, _⟩ => ⟨S256x4096, .f32⟩
  | .local _ .vmem, ⟨19, _⟩ => ⟨S256x4096, .f32⟩
  | .local _ .vmem, ⟨20, _⟩ => ⟨S1x4096, .f32⟩
  | .local _ .vmem, ⟨21, _⟩ => ⟨S1x4096, .f32⟩
  | .local _ .vmem, ⟨22, _⟩ => ⟨S256x4096, .f32⟩
  | .local _ .vmem, ⟨23, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4x4096x4096_S16384x4096 : S4x4096x4096.ShapeCasts S16384x4096
  inb_S8x4096_S8x4096_0_0 : ∀ a, (![0, 0] : Fin 2 → Nat) a + S8x4096.size a ≤ S8x4096.size a
  h_S8x4096 : 0 < S8x4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S4096 : S512x4096.Reduces [0] S4096
  shapeCasts_S4096_S1x4096 : S4096.ShapeCasts S1x4096
  shapeCasts_S1x4096_S1x4096 : S1x4096.ShapeCasts S1x4096
  broadcasts_S1x4096_S8x4096 : S1x4096.Broadcasts S8x4096
  shapeCasts_S8x4096_S8x4096 : S8x4096.ShapeCasts S8x4096
  slices_S16x4096_S1x4096_0_0 : S16x4096.Slices ![0, 0] S1x4096
  shapeCasts_S1x4096_S4096 : S1x4096.ShapeCasts S4096
  slices_S16x4096_S1x4096_8_0 : S16x4096.Slices ![8, 0] S1x4096
  shapeCasts_S4096_S32x128 : S4096.ShapeCasts S32x128
  reducesTo_S32x128_S32_d1 : S32x128.ReducesTo [1] S32
  h_S_ : 0 < S_.numel
  bcast_S_S32 : S_.BroadcastsInDim S32 (![] : Fin 0 → Fin S32.rank)
  bcast_S32_S32x128_0 : S32.BroadcastsInDim S32x128 (![0] : Fin 1 → Fin S32x128.rank)
  shapeCasts_S32x128_S4096 : S32x128.ShapeCasts S4096
  inb_S1x4096_S1x4096_0_0 : ∀ a, (![0, 0] : Fin 2 → Nat) a + S1x4096.size a ≤ S1x4096.size a
  h_S1x4096 : 0 < S1x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S1x4096_S256x4096 : S1x4096.Broadcasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S16x4096.size a
  hwx0_1 : ∀ i : grid0.Coords, EltTy.bits .f32 = 32 ∨ (Rect.block (s := S16x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S16x4096.size a
  hwx0_2 : ∀ i : grid0.Coords, EltTy.bits .f32 = 32 ∨ (Rect.block (s := S16x4096) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S16384x4096.size a
  hwx1_0 : ∀ i : grid1.Coords, EltTy.bits .f32 = 32 ∨ (Rect.block (s := S16384x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x4096.size a
  hwx2_0 : ∀ i : grid2.Coords, EltTy.bits .f32 = 32 ∨ (Rect.block (s := S16384x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x4096.size a ≤ S16x4096.size a
  hwx2_1 : ∀ i : grid2.Coords, EltTy.bits .f32 = 32 ∨ (Rect.block (s := S16x4096) S8x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x4096.size a ≤ S16x4096.size a
  hwx2_2 : ∀ i : grid2.Coords, EltTy.bits .f32 = 32 ∨ (Rect.block (s := S16x4096) S8x4096.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S16384x4096.size a
  hwx3_0 : ∀ i : grid3.Coords, EltTy.bits .f32 = 32 ∨ (Rect.block (s := S16384x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x4096.size a
  hwx3_1 : ∀ i : grid3.Coords, EltTy.bits .f32 = 32 ∨ (Rect.block (s := S1x4096) S1x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S16384x4096.size a
  hwx3_3 : ∀ i : grid3.Coords, EltTy.bits .f32 = 32 ∨ (Rect.block (s := S16384x4096) S256x4096.size (cc3_transform_3 i) (hinb3_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36_0) S8x4096.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36_1) S8x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S256x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x4096x4096 : Shape := ⟨3, ![4, 4096, 4096]⟩
abbrev S16384x4096 : Shape := ⟨2, ![16384, 4096]⟩
abbrev S16384x32x128 : Shape := ⟨3, ![16384, 32, 128]⟩
abbrev S_ : Shape := ⟨0, ![]⟩
abbrev S32 : Shape := ⟨1, ![32]⟩
abbrev S1x32x1 : Shape := ⟨3, ![1, 32, 1]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16384x4096, .f32⟩
  | .hbm, ⟨3, _⟩ => ⟨S16384x32x128, .f32⟩
  | .hbm, ⟨4, _⟩ => ⟨S_, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .i1⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x32x1, .f32⟩
  | .hbm, ⟨23, _⟩ => ⟨S1x32x1, .f32⟩
  | .hbm, ⟨24, _⟩ => ⟨S16384x32x128, .f32⟩
  | .hbm, ⟨25, _⟩ => ⟨S16384x32x128, .f32⟩
  | .hbm, ⟨26, _⟩ => ⟨S16384x32x128, .f32⟩
  | .hbm, ⟨27, _⟩ => ⟨S16384x32x128, .f32⟩
  | .hbm, ⟨28, _⟩ => ⟨S16384x32x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16384x32x128, .f32⟩
  | .hbm, ⟨33, _⟩ => ⟨S16384x32x128, .f32⟩
  | .hbm, ⟨34, _⟩ => ⟨S_, .f32⟩
  | .hbm, ⟨35, _⟩ => ⟨S16384x32x128, .f32⟩
  | .hbm, ⟨36, _⟩ => ⟨S16384x32x128, .f32⟩
  | .hbm, ⟨37, _⟩ => ⟨S16384x32x128, .f32⟩
  | .hbm, ⟨38, _⟩ => ⟨S16384x32x128, .f32⟩
  | .hbm, ⟨39, _⟩ => ⟨S16384x32x128, .f32⟩
  | .hbm, ⟨40, _⟩ => ⟨S16384x32x128, .f32⟩
  | .hbm, ⟨41, _⟩ => ⟨S16384x4096, .f32⟩
  | .hbm, ⟨42, _⟩ => ⟨S4x4096x4096, .f32⟩
  | .hbm, ⟨43, _⟩ => ⟨S16384x4096, .f32⟩
  | .hbm, ⟨44, _⟩ => ⟨S16384x32x128, .f32⟩
  | .hbm, ⟨45, _⟩ => ⟨S_, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .i1⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S1x32x1, .f32⟩
  | .hbm, ⟨64, _⟩ => ⟨S1x32x1, .f32⟩
  | .hbm, ⟨65, _⟩ => ⟨S16384x32x128, .f32⟩
  | .hbm, ⟨66, _⟩ => ⟨S16384x32x128, .f32⟩
  | .hbm, ⟨67, _⟩ => ⟨S16384x32x128, .f32⟩
  | .hbm, ⟨68, _⟩ => ⟨S16384x32x128, .f32⟩
  | .hbm, ⟨69, _⟩ => ⟨S16384x32x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S16384x32x128, .f32⟩
  | .hbm, ⟨74, _⟩ => ⟨S16384x32x128, .f32⟩
  | .hbm, ⟨75, _⟩ => ⟨S_, .f32⟩
  | .hbm, ⟨76, _⟩ => ⟨S16384x32x128, .f32⟩
  | .hbm, ⟨77, _⟩ => ⟨S16384x32x128, .f32⟩
  | .hbm, ⟨78, _⟩ => ⟨S16384x32x128, .f32⟩
  | .hbm, ⟨79, _⟩ => ⟨S16384x32x128, .f32⟩
  | .hbm, ⟨80, _⟩ => ⟨S16384x32x128, .f32⟩
  | .hbm, ⟨81, _⟩ => ⟨S16384x32x128, .f32⟩
  | .hbm, ⟨82, _⟩ => ⟨S16384x4096, .f32⟩
  | .hbm, ⟨83, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_cst_12 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  shapeCasts_S4x4096x4096_S16384x4096 : S4x4096x4096.ShapeCasts S16384x4096
  shapeCasts_S16384x4096_S16384x32x128 : S16384x4096.ShapeCasts S16384x32x128
  reducesTo_S16384x32x128_S32_d0_2 : S16384x32x128.ReducesTo [0, 2] S32
  h_S_ : 0 < S_.numel
  bcast_S_S32 : S_.BroadcastsInDim S32 (![] : Fin 0 → Fin S32.rank)
  bcast_S32_S1x32x1_1 : S32.BroadcastsInDim S1x32x1 (![1] : Fin 1 → Fin S1x32x1.rank)
  bcast_S1x32x1_S16384x32x128_0_1_2 : S1x32x1.BroadcastsInDim S16384x32x128 (![0, 1, 2] : Fin 3 → Fin S16384x32x128.rank)
  bcast_S_S16384x32x128 : S_.BroadcastsInDim S16384x32x128 (![] : Fin 0 → Fin S16384x32x128.rank)
  shapeCasts_S16384x32x128_S16384x4096 : S16384x32x128.ShapeCasts S16384x4096
  shapeCasts_S16384x4096_S4x4096x4096 : S16384x4096.ShapeCasts S4x4096x4096

variable [Facts₀]

class Facts : Prop extends Facts₀ where

variable [Facts]
-- ==== Proof.RefRun.lean ====
/-
  The reference's run, read stage by stage.

  The reference's 82 host operations fall into two runs of 41, one per argument, and each run into three stretches:
  the two recasts and the two reductions (the group extrema); the scalar chain to the scale and zero point of each
  group; and the entry-by-entry quantization and dequantization with the final recasts. The contents of a buffer
  after the whole list is the fold of the stretches in order; each stretch is read over ARBITRARY contents of the
  buffers it starts from, so no term ever holds more than one stretch's operations. Every stage is the function
  of the argument that the reference's stage-by-stage reading names, so each result buffer ends at the last stage
  of its argument.
-/
import proofs.«117061_j1211180777498_2_alg».proof.Proof.RefRunP
import proofs.«117061_j1211180777498_2_alg».proof.Proof.RefReadP
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The six stretches -/

/-- First argument: the recasts and the two reductions. -/
abbrev opsA : List (HloOp τ sig (Elt F)) :=
  [ reshape main_arg0 main_v0 rfl shapeCasts_S4x4096x4096_S16384x4096,
    reshape main_v0 main_v1 rfl shapeCasts_S16384x4096_S16384x32x128,
    nullary main_cst (constant S_ .f32 0x7F800000#32),
    binary main_v1 main_cst main_v2 ((fun x v => Host.reduce FloatOps.minimumf x v reducesTo_S16384x32x128_S32_d0_2 h_S_) : (⟨S16384x32x128, .f32⟩ : BufTy).Contents (Elt F) → (⟨S_, .f32⟩ : BufTy).Contents (Elt F) → (⟨S32, .f32⟩ : BufTy).Contents (Elt F)),
    nullary main_cst_0 (constant S_ .f32 0xFF800000#32),
    binary main_v1 main_cst_0 main_v3 ((fun x v => Host.reduce FloatOps.maximumf x v reducesTo_S16384x32x128_S32_d0_2 h_S_) : (⟨S16384x32x128, .f32⟩ : BufTy).Contents (Elt F) → (⟨S_, .f32⟩ : BufTy).Contents (Elt F) → (⟨S32, .f32⟩ : BufTy).Contents (Elt F)) ]

/-- First argument: the scalar chain to each group's scale and zero point. -/
abbrev opsB : List (HloOp τ sig (Elt F)) :=
  [ binary main_v3 main_v2 main_v4 (cmpf .oeq : (⟨S32, .f32⟩ : BufTy).Contents (Elt F) → (⟨S32, .f32⟩ : BufTy).Contents (Elt F) → (⟨S32, .i1⟩ : BufTy).Contents (Elt F)),
    nullary main_cst_1 (constant S_ .f32 0x3727C5AC#32),
    unary main_cst_1 main_v5 (broadcastInDim S32 ![] bcast_S_S32 : (⟨S_, .f32⟩ : BufTy).Contents (Elt F) → (⟨S32, .f32⟩ : BufTy).Contents (Elt F)),
    binary main_v2 main_v5 main_v6 (addf : (⟨S32, .f32⟩ : BufTy).Contents (Elt F) → (⟨S32, .f32⟩ : BufTy).Contents (Elt F) → (⟨S32, .f32⟩ : BufTy).Contents (Elt F)),
    TRef.ternary (TRef.of (T := ⟨S32, .i1⟩) main_v4) (TRef.of (T := ⟨S32, .f32⟩) main_v6) (TRef.of (T := ⟨S32, .f32⟩) main_v3) (TRef.of (T := ⟨S32, .f32⟩) main_v7) select,
    binary main_v7 main_v2 main_v8 (subf : (⟨S32, .f32⟩ : BufTy).Contents (Elt F) → (⟨S32, .f32⟩ : BufTy).Contents (Elt F) → (⟨S32, .f32⟩ : BufTy).Contents (Elt F)),
    nullary main_cst_2 (constant S_ .f32 0x437F0000#32),
    unary main_cst_2 main_v9 (broadcastInDim S32 ![] bcast_S_S32 : (⟨S_, .f32⟩ : BufTy).Contents (Elt F) → (⟨S32, .f32⟩ : BufTy).Contents (Elt F)),
    binary main_v8 main_v9 main_v10 (Host.divf : (⟨S32, .f32⟩ : BufTy).Contents (Elt F) → (⟨S32, .f32⟩ : BufTy).Contents (Elt F) → (⟨S32, .f32⟩ : BufTy).Contents (Elt F)),
    binary main_v2 main_v10 main_v11 (Host.divf : (⟨S32, .f32⟩ : BufTy).Contents (Elt F) → (⟨S32, .f32⟩ : BufTy).Contents (Elt F) → (⟨S32, .f32⟩ : BufTy).Contents (Elt F)),
    TRef.unary (TRef.of (T := ⟨S32, .f32⟩) main_v11) (TRef.of (T := ⟨S32, .f32⟩) main_v12) Host.roundeven,
    nullary main_cst_3 (constant S_ .f32 0x00000000#32),
    unary main_cst_3 main_v13 (broadcastInDim S32 ![] bcast_S_S32 : (⟨S_, .f32⟩ : BufTy).Contents (Elt F) → (⟨S32, .f32⟩ : BufTy).Contents (Elt F)),
    binary main_v13 main_v12 main_v14 (subf : (⟨S32, .f32⟩ : BufTy).Contents (Elt F) → (⟨S32, .f32⟩ : BufTy).Contents (Elt F) → (⟨S32, .f32⟩ : BufTy).Contents (Elt F)) ]

/-- First argument: the entries quantized and dequantized, and the recasts back. -/
abbrev opsC : List (HloOp τ sig (Elt F)) :=
  [ unary main_v10 main_v15 (broadcastInDim S1x32x1 ![1] bcast_S32_S1x32x1_1 : (⟨S32, .f32⟩ : BufTy).Contents (Elt F) → (⟨S1x32x1, .f32⟩ : BufTy).Contents (Elt F)),
    unary main_v14 main_v16 (broadcastInDim S1x32x1 ![1] bcast_S32_S1x32x1_1 : (⟨S32, .f32⟩ : BufTy).Contents (Elt F) → (⟨S1x32x1, .f32⟩ : BufTy).Contents (Elt F)),
    unary main_v15 main_v17 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v1 main_v17 main_v18 (Host.divf : (⟨S16384x32x128, .f32⟩ : BufTy).Contents (Elt F) → (⟨S16384x32x128, .f32⟩ : BufTy).Contents (Elt F) → (⟨S16384x32x128, .f32⟩ : BufTy).Contents (Elt F)),
    unary main_v16 main_v19 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v18 main_v19 main_v20 (addf : (⟨S16384x32x128, .f32⟩ : BufTy).Contents (Elt F) → (⟨S16384x32x128, .f32⟩ : BufTy).Contents (Elt F) → (⟨S16384x32x128, .f32⟩ : BufTy).Contents (Elt F)),
    TRef.unary (TRef.of (T := ⟨S16384x32x128, .f32⟩) main_v20) (TRef.of (T := ⟨S16384x32x128, .f32⟩) main_v21) Host.roundeven,
    nullary main_cst_4 (constant S_ .f32 0x00000000#32),
    nullary main_cst_5 (constant S_ .f32 0x437F0000#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S16384x32x128, .f32⟩) main_call3_v1) (broadcastInDim S16384x32x128 ![] bcast_S_S16384x32x128),
    TRef.binary (TRef.of (T := ⟨S16384x32x128, .f32⟩) main_call3_v1) (TRef.of (T := ⟨S16384x32x128, .f32⟩) main_v21) (TRef.of (T := ⟨S16384x32x128, .f32⟩) main_call3_v2) maximumf,
    TRef.unary (TRef.of (T := ⟨S_, .f32⟩) main_cst_5) (TRef.of (T := ⟨S_, .f32⟩) main_call3_v3) id,
    TRef.unary (TRef.of (T := ⟨S_, .f32⟩) main_call3_v3) (TRef.of (T := ⟨S16384x32x128, .f32⟩) main_call3_v4) (broadcastInDim S16384x32x128 ![] bcast_S_S16384x32x128),
    TRef.binary (TRef.of (T := ⟨S16384x32x128, .f32⟩) main_call3_v4) (TRef.of (T := ⟨S16384x32x128, .f32⟩) main_call3_v2) (TRef.of (T := ⟨S16384x32x128, .f32⟩) main_v22) minimumf,
    unary main_v16 main_v23 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v22 main_v23 main_v24 (subf : (⟨S16384x32x128, .f32⟩ : BufTy).Contents (Elt F) → (⟨S16384x32x128, .f32⟩ : BufTy).Contents (Elt F) → (⟨S16384x32x128, .f32⟩ : BufTy).Contents (Elt F)),
    unary main_v15 main_v25 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v24 main_v25 main_v26 (mulf : (⟨S16384x32x128, .f32⟩ : BufTy).Contents (Elt F) → (⟨S16384x32x128, .f32⟩ : BufTy).Contents (Elt F) → (⟨S16384x32x128, .f32⟩ : BufTy).Contents (Elt F)),
    reshape main_v26 main_v27 rfl shapeCasts_S16384x32x128_S16384x4096,
    reshape main_v27 main_v28 rfl shapeCasts_S16384x4096_S4x4096x4096 ]

/-- Second argument: the recasts and the two reductions. -/
abbrev opsD : List (HloOp τ sig (Elt F)) :=
  [ reshape main_arg1 main_v29 rfl shapeCasts_S4x4096x4096_S16384x4096,
    reshape main_v29 main_v30 rfl shapeCasts_S16384x4096_S16384x32x128,
    nullary main_cst_6 (constant S_ .f32 0x7F800000#32),
    binary main_v30 main_cst_6 main_v31 ((fun x v => Host.reduce FloatOps.minimumf x v reducesTo_S16384x32x128_S32_d0_2 h_S_) : (⟨S16384x32x128, .f32⟩ : BufTy).Contents (Elt F) → (⟨S_, .f32⟩ : BufTy).Contents (Elt F) → (⟨S32, .f32⟩ : BufTy).Contents (Elt F)),
    nullary main_cst_7 (constant S_ .f32 0xFF800000#32),
    binary main_v30 main_cst_7 main_v32 ((fun x v => Host.reduce FloatOps.maximumf x v reducesTo_S16384x32x128_S32_d0_2 h_S_) : (⟨S16384x32x128, .f32⟩ : BufTy).Contents (Elt F) → (⟨S_, .f32⟩ : BufTy).Contents (Elt F) → (⟨S32, .f32⟩ : BufTy).Contents (Elt F)) ]

/-- Second argument: the scalar chain to each group's scale and zero point. -/
abbrev opsE : List (HloOp τ sig (Elt F)) :=
  [ binary main_v32 main_v31 main_v33 (cmpf .oeq : (⟨S32, .f32⟩ : BufTy).Contents (Elt F) → (⟨S32, .f32⟩ : BufTy).Contents (Elt F) → (⟨S32, .i1⟩ : BufTy).Contents (Elt F)),
    nullary main_cst_8 (constant S_ .f32 0x3727C5AC#32),
    unary main_cst_8 main_v34 (broadcastInDim S32 ![] bcast_S_S32 : (⟨S_, .f32⟩ : BufTy).Contents (Elt F) → (⟨S32, .f32⟩ : BufTy).Contents (Elt F)),
    binary main_v31 main_v34 main_v35 (addf : (⟨S32, .f32⟩ : BufTy).Contents (Elt F) → (⟨S32, .f32⟩ : BufTy).Contents (Elt F) → (⟨S32, .f32⟩ : BufTy).Contents (Elt F)),
    TRef.ternary (TRef.of (T := ⟨S32, .i1⟩) main_v33) (TRef.of (T := ⟨S32, .f32⟩) main_v35) (TRef.of (T := ⟨S32, .f32⟩) main_v32) (TRef.of (T := ⟨S32, .f32⟩) main_v36) select,
    binary main_v36 main_v31 main_v37 (subf : (⟨S32, .f32⟩ : BufTy).Contents (Elt F) → (⟨S32, .f32⟩ : BufTy).Contents (Elt F) → (⟨S32, .f32⟩ : BufTy).Contents (Elt F)),
    nullary main_cst_9 (constant S_ .f32 0x437F0000#32),
    unary main_cst_9 main_v38 (broadcastInDim S32 ![] bcast_S_S32 : (⟨S_, .f32⟩ : BufTy).Contents (Elt F) → (⟨S32, .f32⟩ : BufTy).Contents (Elt F)),
    binary main_v37 main_v38 main_v39 (Host.divf : (⟨S32, .f32⟩ : BufTy).Contents (Elt F) → (⟨S32, .f32⟩ : BufTy).Contents (Elt F) → (⟨S32, .f32⟩ : BufTy).Contents (Elt F)),
    binary main_v31 main_v39 main_v40 (Host.divf : (⟨S32, .f32⟩ : BufTy).Contents (Elt F) → (⟨S32, .f32⟩ : BufTy).Contents (Elt F) → (⟨S32, .f32⟩ : BufTy).Contents (Elt F)),
    TRef.unary (TRef.of (T := ⟨S32, .f32⟩) main_v40) (TRef.of (T := ⟨S32, .f32⟩) main_v41) Host.roundeven,
    nullary main_cst_10 (constant S_ .f32 0x00000000#32),
    unary main_cst_10 main_v42 (broadcastInDim S32 ![] bcast_S_S32 : (⟨S_, .f32⟩ : BufTy).Contents (Elt F) → (⟨S32, .f32⟩ : BufTy).Contents (Elt F)),
    binary main_v42 main_v41 main_v43 (subf : (⟨S32, .f32⟩ : BufTy).Contents (Elt F) → (⟨S32, .f32⟩ : BufTy).Contents (Elt F) → (⟨S32, .f32⟩ : BufTy).Contents (Elt F)) ]

/-- Second argument: the entries quantized and dequantized, and the recasts back. -/
abbrev opsG : List (HloOp τ sig (Elt F)) :=
  [ unary main_v39 main_v44 (broadcastInDim S1x32x1 ![1] bcast_S32_S1x32x1_1 : (⟨S32, .f32⟩ : BufTy).Contents (Elt F) → (⟨S1x32x1, .f32⟩ : BufTy).Contents (Elt F)),
    unary main_v43 main_v45 (broadcastInDim S1x32x1 ![1] bcast_S32_S1x32x1_1 : (⟨S32, .f32⟩ : BufTy).Contents (Elt F) → (⟨S1x32x1, .f32⟩ : BufTy).Contents (Elt F)),
    unary main_v44 main_v46 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v30 main_v46 main_v47 (Host.divf : (⟨S16384x32x128, .f32⟩ : BufTy).Contents (Elt F) → (⟨S16384x32x128, .f32⟩ : BufTy).Contents (Elt F) → (⟨S16384x32x128, .f32⟩ : BufTy).Contents (Elt F)),
    unary main_v45 main_v48 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v47 main_v48 main_v49 (addf : (⟨S16384x32x128, .f32⟩ : BufTy).Contents (Elt F) → (⟨S16384x32x128, .f32⟩ : BufTy).Contents (Elt F) → (⟨S16384x32x128, .f32⟩ : BufTy).Contents (Elt F)),
    TRef.unary (TRef.of (T := ⟨S16384x32x128, .f32⟩) main_v49) (TRef.of (T := ⟨S16384x32x128, .f32⟩) main_v50) Host.roundeven,
    nullary main_cst_11 (constant S_ .f32 0x00000000#32),
    nullary main_cst_12 (constant S_ .f32 0x437F0000#32),
    TRef.unary (TRef.of (T := ⟨S_, .f32⟩) main_cst_11) (TRef.of (T := ⟨S_, .f32⟩) main_call7_v0) id,
    TRef.unary (TRef.of (T := ⟨S_, .f32⟩) main_call7_v0) (TRef.of (T := ⟨S16384x32x128, .f32⟩) main_call7_v1) (broadcastInDim S16384x32x128 ![] bcast_S_S16384x32x128),
    TRef.binary (TRef.of (T := ⟨S16384x32x128, .f32⟩) main_call7_v1) (TRef.of (T := ⟨S16384x32x128, .f32⟩) main_v50) (TRef.of (T := ⟨S16384x32x128, .f32⟩) main_call7_v2) maximumf,
    TRef.unary (TRef.of (T := ⟨S_, .f32⟩) main_cst_12) (TRef.of (T := ⟨S_, .f32⟩) main_call7_v3) id,
    TRef.unary (TRef.of (T := ⟨S_, .f32⟩) main_call7_v3) (TRef.of (T := ⟨S16384x32x128, .f32⟩) main_call7_v4) (broadcastInDim S16384x32x128 ![] bcast_S_S16384x32x128),
    TRef.binary (TRef.of (T := ⟨S16384x32x128, .f32⟩) main_call7_v4) (TRef.of (T := ⟨S16384x32x128, .f32⟩) main_call7_v2) (TRef.of (T := ⟨S16384x32x128, .f32⟩) main_v51) minimumf,
    unary main_v45 main_v52 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v51 main_v52 main_v53 (subf : (⟨S16384x32x128, .f32⟩ : BufTy).Contents (Elt F) → (⟨S16384x32x128, .f32⟩ : BufTy).Contents (Elt F) → (⟨S16384x32x128, .f32⟩ : BufTy).Contents (Elt F)),
    unary main_v44 main_v54 (broadcastInDim S16384x32x128 ![0, 1, 2] bcast_S1x32x1_S16384x32x128_0_1_2 : (⟨S1x32x1, .f32⟩ : BufTy).Contents (Elt F) → (⟨S16384x32x128, .f32⟩ : BufTy).Contents (Elt F)),
    binary main_v53 main_v54 main_v55 (mulf : (⟨S16384x32x128, .f32⟩ : BufTy).Contents (Elt F) → (⟨S16384x32x128, .f32⟩ : BufTy).Contents (Elt F) → (⟨S16384x32x128, .f32⟩ : BufTy).Contents (Elt F)),
    reshape main_v55 main_v56 rfl shapeCasts_S16384x32x128_S16384x4096,
    reshape main_v56 main_v57 rfl shapeCasts_S16384x4096_S4x4096x4096 ]

/-- The program's list is the six stretches in order. -/
theorem ops_split : (ops : List (HloOp τ sig (Elt F))) = opsA ++ (opsB ++ (opsC ++ (opsD ++ (opsE ++ opsG)))) := rfl

/-- The fold over the whole list is the folds over the stretches, in order. -/
theorem after_ops (V : Valuation τ sig (Elt F)) :
    after ops V = after opsG (after opsE (after opsD (after opsC (after opsB (after opsA V))))) := by
  rw [ops_split, StableHlo.after_append, StableHlo.after_append, StableHlo.after_append, StableHlo.after_append,
    StableHlo.after_append]

/-! ## The first argument's stretches, over arbitrary starting contents -/

theorem A_regrouped (V : Valuation τ sig (Elt F)) :
    after opsA V (Proc.devRef .tc main_v1) = val_main_v1 (F := F) (V (Proc.devRef .tc main_arg0)) := by
  after_results_simp <;> rfl

theorem A_min (V : Valuation τ sig (Elt F)) :
    after opsA V (Proc.devRef .tc main_v2) = val_main_v2 (F := F) (V (Proc.devRef .tc main_arg0)) := by
  after_results_simp <;> rfl

theorem A_max (V : Valuation τ sig (Elt F)) :
    after opsA V (Proc.devRef .tc main_v3) = val_main_v3 (F := F) (V (Proc.devRef .tc main_arg0)) := by
  after_results_simp <;> rfl

theorem B_regrouped (W : Valuation τ sig (Elt F)) : after opsB W (Proc.devRef .tc main_v1) = W (Proc.devRef .tc main_v1) := by
  after_results_simp

theorem B_scale (W : Valuation τ sig (Elt F)) (x : (⟨S4x4096x4096, .f32⟩ : BufTy).Contents (Elt F))
    (h2 : W (Proc.devRef .tc main_v2) = val_main_v2 (F := F) x) (h3 : W (Proc.devRef .tc main_v3) = val_main_v3 (F := F) x) :
    after opsB W (Proc.devRef .tc main_v10) = val_main_v10 (F := F) x := by
  after_results_simp
  simp only [TRef.toBuf, TRef.ofBuf, cast_eq]
  rw [h2, h3]
  rfl

theorem B_zp (W : Valuation τ sig (Elt F)) (x : (⟨S4x4096x4096, .f32⟩ : BufTy).Contents (Elt F))
    (h2 : W (Proc.devRef .tc main_v2) = val_main_v2 (F := F) x) (h3 : W (Proc.devRef .tc main_v3) = val_main_v3 (F := F) x) :
    after opsB W (Proc.devRef .tc main_v14) = val_main_v14 (F := F) x := by
  after_results_simp
  simp only [TRef.toBuf, TRef.ofBuf, cast_eq]
  rw [h2, h3]
  rfl

theorem C_result (W : Valuation τ sig (Elt F)) (x : (⟨S4x4096x4096, .f32⟩ : BufTy).Contents (Elt F))
    (h1 : W (Proc.devRef .tc main_v1) = val_main_v1 (F := F) x) (h10 : W (Proc.devRef .tc main_v10) = val_main_v10 (F := F) x)
    (h14 : W (Proc.devRef .tc main_v14) = val_main_v14 (F := F) x) :
    after opsC W (Proc.devRef .tc main_v28) = val_main_v28 (F := F) x := by
  after_results_simp
  simp only [TRef.toBuf, TRef.ofBuf, cast_eq]
  rw [h1, h10, h14]
  rfl

/-! ## The second argument's stretches, over arbitrary starting contents -/

theorem D_regrouped (V : Valuation τ sig (Elt F)) :
    after opsD V (Proc.devRef .tc main_v30) = val_main_v30 (F := F) (V (Proc.devRef .tc main_arg1)) := by
  after_results_simp <;> rfl

theorem D_min (V : Valuation τ sig (Elt F)) :
    after opsD V (Proc.devRef .tc main_v31) = val_main_v31 (F := F) (V (Proc.devRef .tc main_arg1)) := by
  after_results_simp <;> rfl

theorem D_max (V : Valuation τ sig (Elt F)) :
    after opsD V (Proc.devRef .tc main_v32) = val_main_v32 (F := F) (V (Proc.devRef .tc main_arg1)) := by
  after_results_simp <;> rfl

theorem E_regrouped (W : Valuation τ sig (Elt F)) : after opsE W (Proc.devRef .tc main_v30) = W (Proc.devRef .tc main_v30) := by
  after_results_simp

theorem E_scale (W : Valuation τ sig (Elt F)) (x : (⟨S4x4096x4096, .f32⟩ : BufTy).Contents (Elt F))
    (h2 : W (Proc.devRef .tc main_v31) = val_main_v31 (F := F) x) (h3 : W (Proc.devRef .tc main_v32) = val_main_v32 (F := F) x) :
    after opsE W (Proc.devRef .tc main_v39) = val_main_v39 (F := F) x := by
  after_results_simp
  simp only [TRef.toBuf, TRef.ofBuf, cast_eq]
  rw [h2, h3]
  rfl

theorem E_zp (W : Valuation τ sig (Elt F)) (x : (⟨S4x4096x4096, .f32⟩ : BufTy).Contents (Elt F))
    (h2 : W (Proc.devRef .tc main_v31) = val_main_v31 (F := F) x) (h3 : W (Proc.devRef .tc main_v32) = val_main_v32 (F := F) x) :
    after opsE W (Proc.devRef .tc main_v43) = val_main_v43 (F := F) x := by
  after_results_simp
  simp only [TRef.toBuf, TRef.ofBuf, cast_eq]
  rw [h2, h3]
  rfl

theorem G_result (W : Valuation τ sig (Elt F)) (x : (⟨S4x4096x4096, .f32⟩ : BufTy).Contents (Elt F))
    (h1 : W (Proc.devRef .tc main_v30) = val_main_v30 (F := F) x) (h10 : W (Proc.devRef .tc main_v39) = val_main_v39 (F := F) x)
    (h14 : W (Proc.devRef .tc main_v43) = val_main_v43 (F := F) x) :
    after opsG W (Proc.devRef .tc main_v57) = val_main_v57 (F := F) x := by
  after_results_simp
  simp only [TRef.toBuf, TRef.ofBuf, cast_eq]
  rw [h1, h10, h14]
  rfl

/-! ## What a stretch leaves alone -/

theorem D_keep_first (W : Valuation τ sig (Elt F)) : after opsD W (Proc.devRef .tc main_v28) = W (Proc.devRef .tc main_v28) := by after_results_simp
theorem E_keep_first (W : Valuation τ sig (Elt F)) : after opsE W (Proc.devRef .tc main_v28) = W (Proc.devRef .tc main_v28) := by after_results_simp
theorem G_keep_first (W : Valuation τ sig (Elt F)) : after opsG W (Proc.devRef .tc main_v28) = W (Proc.devRef .tc main_v28) := by after_results_simp
theorem A_keep_second (W : Valuation τ sig (Elt F)) : after opsA W (Proc.devRef .tc main_arg1) = W (Proc.devRef .tc main_arg1) := by after_results_simp
theorem B_keep_second (W : Valuation τ sig (Elt F)) : after opsB W (Proc.devRef .tc main_arg1) = W (Proc.devRef .tc main_arg1) := by after_results_simp
theorem C_keep_second (W : Valuation τ sig (Elt F)) : after opsC W (Proc.devRef .tc main_arg1) = W (Proc.devRef .tc main_arg1) := by after_results_simp

/-! ## The whole list -/

/-- The first result buffer ends at the last stage of the first argument. -/
theorem after_first (V : Valuation τ sig (Elt F)) :
    after ops V (Proc.devRef .tc main_v28) = val_main_v28 (F := F) (V (Proc.devRef .tc main_arg0)) := by
  rw [after_ops, G_keep_first, E_keep_first, D_keep_first]
  exact C_result _ _ ((B_regrouped _).trans (A_regrouped V)) (B_scale _ _ (A_min V) (A_max V)) (B_zp _ _ (A_min V) (A_max V))

/-- The second result buffer ends at the last stage of the second argument. -/
theorem after_second (V : Valuation τ sig (Elt F)) :
    after ops V (Proc.devRef .tc main_v57) = val_main_v57 (F := F) (V (Proc.devRef .tc main_arg1)) := by
  have harg : after opsC (after opsB (after opsA V)) (Proc.devRef .tc main_arg1) = V (Proc.devRef .tc main_arg1) := by
    rw [C_keep_second, B_keep_second, A_keep_second]
  rw [after_ops, ← harg]
  exact G_result _ _ ((E_regrouped _).trans (D_regrouped _)) (E_scale _ _ (D_min _) (D_max _)) (E_zp _ _ (D_min _) (D_max _))

/-- The arguments are written by no operation. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp

/-- THE RUN, READ: every weakly fair execution terminates with each result at the last stage of its argument and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = val_main_v28 (F := F) (m ((c.tc : Thread nD τ).loc main_arg0))
      ∧ r.2.mem ((c.tc : Thread nD τ).loc main_v57) = val_main_v57 (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v28).trans (after_first _), (h c main_v57).trans (after_second _),
      (h c main_arg0).trans (after_arg0 _), (h c main_arg1).trans (after_arg1 _)⟩)
    (run_after m ρ)

end Cert.ReferenceIdeal.RefRun

end
-- ==== Proof.Spec.lean ====
/-
  The specification: per-group dynamic min/max fake-quantization followed by dequantization, of one [16384, 4096]
  array of extended reals whose 4096 columns fall into 32 groups of 128 consecutive columns.

  For a group `g`, `gmin X g` and `gmax X g` are the infimum and supremum of `X` over ALL rows and the group's 128
  columns. From them: the upper end is nudged when it meets the lower (`mx' = mn + ε` if `mx = mn`), the scale is
  `(mx' - mn) / 255`, the zero point `0 - round(mn / scale)` (round to nearest, ties to even); and every entry `x` of
  the group becomes `(min(255, max(0, round(x / scale + zp))) - zp) · scale`. Every operation is the exact one on
  the extended reals; the float literals (ε, 255, 0) are kept as their f32 patterns.
-/
import Idealize.ShloMosaic.PureOps.Ideal
import Idealize.ShloMosaic.Lib.ValueIdx

noncomputable section

namespace Cert.Spec

open Idealize.ShloMosaic Idealize.ShloMosaic.ValueIdx

/-- A [16384, 4096] array of extended reals. -/
abbrev Mat : Type := (⟨2, ![16384, 4096]⟩ : Shape).Idx → EReal

/-- The column of lane `l` of group `g`: `128·g + l`. -/
def colOf (g : Fin 32) (l : Fin 128) : Fin 4096 := ⟨g.val * 128 + l.val, by have := g.isLt; have := l.isLt; omega⟩

/-- The group a column belongs to: `j / 128`. -/
def groupOf (j : Fin 4096) : Fin 32 := ⟨j.val / 128, by have := j.isLt; omega⟩

/-- The infimum of a group: over every row and the group's 128 columns. -/
def gmin (X : Mat) (g : Fin 32) : EReal := ⨅ (n : Fin 16384) (l : Fin 128), X (ix2 n (colOf g l))

/-- The supremum of a group: over every row and the group's 128 columns. -/
def gmax (X : Mat) (g : Fin 32) : EReal := ⨆ (n : Fin 16384) (l : Fin 128), X (ix2 n (colOf g l))

/-- The scale of a group from its extrema: `(mx' - mn) / 255`, where `mx' = mn + ε` when `mx = mn` and `mx` otherwise. -/
def scaleOf (mn mx : EReal) : EReal :=
  FloatOps.hostDivf (F := Ideal) (φ := .f32)
    (FloatOps.subf (F := Ideal) (φ := .f32)
      (Scalar.select (FloatOps.cmpf (F := Ideal) (φ := .f32) .oeq mx mn)
        (FloatOps.addf (F := Ideal) (φ := .f32) mn (FloatOps.ofBits (F := Ideal) .f32 0x3727C5AC#32)) mx) mn)
    (FloatOps.ofBits (F := Ideal) .f32 0x437F0000#32)

/-- The zero point of a group: `0 - round(mn / scale)`. -/
def zpOf (mn mx : EReal) : EReal :=
  FloatOps.subf (F := Ideal) (φ := .f32) (FloatOps.ofBits (F := Ideal) .f32 0x00000000#32)
    (FloatOps.hostUnary (F := Ideal) (φ := .f32) .roundeven (FloatOps.hostDivf (F := Ideal) (φ := .f32) mn (scaleOf mn mx)))

/-- One entry quantized and dequantized with scale `s` and zero point `z`:
    `(min(255, max(0, round(x / s + z))) - z) · s`. -/
def qd (x s z : EReal) : EReal :=
  FloatOps.mulf (F := Ideal) (φ := .f32)
    (FloatOps.subf (F := Ideal) (φ := .f32)
      (FloatOps.minimumf (F := Ideal) (φ := .f32) (FloatOps.ofBits (F := Ideal) .f32 0x437F0000#32)
        (FloatOps.maximumf (F := Ideal) (φ := .f32) (FloatOps.ofBits (F := Ideal) .f32 0x00000000#32)
          (FloatOps.roundeven (F := Ideal) (φ := .f32)
            (FloatOps.addf (F := Ideal) (φ := .f32) (FloatOps.divf (F := Ideal) (φ := .f32) x s) z))))
      z) s

/-- The scale of the group of column `j`. -/
def scaleAt (X : Mat) (j : Fin 4096) : EReal := scaleOf (gmin X (groupOf j)) (gmax X (groupOf j))

/-- The zero point of the group of column `j`. -/
def zpAt (X : Mat) (j : Fin 4096) : EReal := zpOf (gmin X (groupOf j)) (gmax X (groupOf j))

/-- The whole result at row `n`, column `j`. -/
def QDat (X : Mat) (n : Fin 16384) (j : Fin 4096) : EReal := qd (X (ix2 n j)) (scaleAt X j) (zpAt X j)

/-- The whole result as an array. -/
def QD (X : Mat) : Mat := fun i => QDat X (i 0) (i 1)

/-- A [1, 4096] row of extended reals. -/
abbrev Row : Type := (⟨2, ![1, 4096]⟩ : Shape).Idx → EReal

/-- Every entry quantized and dequantized with the scale and zero point two rows hold at its column. -/
def applyRows (Y : Mat) (S Z : Row) : Mat := fun i => qd (Y i) (S (ix2 (0 : Fin 1) (i 1))) (Z (ix2 (0 : Fin 1) (i 1)))

/-- With the rows holding each column's group scale and zero point, that is the whole result. -/
theorem applyRows_eq_QD (Y : Mat) (S Z : Row) (hS : ∀ j : Fin 4096, S (ix2 (0 : Fin 1) j) = scaleAt Y j)
    (hZ : ∀ j : Fin 4096, Z (ix2 (0 : Fin 1) j) = zpAt Y j) : applyRows Y S Z = QD Y := by
  funext i
  obtain ⟨n, j, rfl⟩ : ∃ (n : Fin 16384) (j : Fin 4096), i = ix2 n j := ⟨i 0, i 1, eq_ix2 i⟩
  show qd (Y (ix2 n j)) (S (ix2 (0 : Fin 1) j)) (Z (ix2 (0 : Fin 1) j)) = qd (Y (ix2 n j)) (scaleAt Y j) (zpAt Y j)
  rw [hS, hZ]

theorem groupOf_colOf (g : Fin 32) (l : Fin 128) : groupOf (colOf g l) = g := by
  apply Fin.ext
  show (g.val * 128 + l.val) / 128 = g.val
  have := l.isLt
  omega

end Cert.Spec

end
-- ==== Proof.LibHostExtrema.lean ====
/-
  A host reduction by minimum or maximum, on the extended reals, over any set of axes.

  A one-operand host reduce whose body is the minimum and whose initial value is `+∞` gives, at a result index `j`,
  the infimum of the operand over the indices that drop to `j`; with the maximum and `-∞`, the supremum. Folding `min`
  from `⊤` (resp. `max` from `⊥`) over a finite set is the infimum (supremum) over the set.
-/
import Idealize.ShloMosaic.PureOps.Ideal.Laws

noncomputable section

namespace Cert.LibHostExtrema

open Idealize.ShloMosaic

/-- Folding `min` from `⊤` over a finite set is the infimum over the set. -/
theorem fold_min_top_finset {ι : Type*} (S : Finset ι) (f : ι → EReal) :
    S.fold min ⊤ f = ⨅ i ∈ S, f i := by
  refine eq_of_forall_le_iff fun z => ?_
  rw [Finset.le_fold_min, le_iInf₂_iff]
  exact ⟨fun h => h.2, fun h => ⟨le_top, h⟩⟩

/-- Folding `max` from `⊥` over a finite set is the supremum over the set. -/
theorem fold_max_bot_finset {ι : Type*} (S : Finset ι) (f : ι → EReal) :
    S.fold max ⊥ f = ⨆ i ∈ S, f i := by
  refine eq_of_forall_ge_iff fun z => ?_
  rw [Finset.fold_max_le, iSup₂_le_iff]
  exact ⟨fun h => h.2, fun h => ⟨bot_le, h⟩⟩

/-- A host min-reduce from `+∞`: at `j`, the infimum of the operand over the indices that drop to `j`. -/
theorem hostReduce_min_inf {s t u : Shape} {axes : List (Fin s.rank)} (x : s.Idx → EReal) (init : u.Idx → EReal)
    (h : s.ReducesTo axes t) (hu : 0 < u.numel) (hinit : init (Shape.Idx.first hu) = ⊤) (j : t.Idx) :
    Host.reduce (FloatOps.minimumf (F := Ideal) (φ := .f32)) x init h hu j = ⨅ (i : s.Idx) (_ : h.drop i = j), x i := by
  rw [Host.reduce_eq_fold, hinit]
  show (Finset.univ.filter fun i => h.drop i = j).fold min ⊤ x = _
  rw [fold_min_top_finset]
  refine iInf_congr fun i => ?_
  simp only [Finset.mem_filter, Finset.mem_univ, true_and]

/-- A host max-reduce from `-∞`: at `j`, the supremum of the operand over the indices that drop to `j`. -/
theorem hostReduce_max_sup {s t u : Shape} {axes : List (Fin s.rank)} (x : s.Idx → EReal) (init : u.Idx → EReal)
    (h : s.ReducesTo axes t) (hu : 0 < u.numel) (hinit : init (Shape.Idx.first hu) = ⊥) (j : t.Idx) :
    Host.reduce (FloatOps.maximumf (F := Ideal) (φ := .f32)) x init h hu j = ⨆ (i : s.Idx) (_ : h.drop i = j), x i := by
  rw [Host.reduce_eq_fold, hinit]
  show (Finset.univ.filter fun i => h.drop i = j).fold max ⊥ x = _
  rw [fold_max_bot_finset]
  refine iSup_congr fun i => ?_
  simp only [Finset.mem_filter, Finset.mem_univ, true_and]

end Cert.LibHostExtrema

end
-- ==== Proof.RefValue.lean ====
/-
  The reference computes the specification.

  Its result for one argument, before the final recast to [4, 4096, 4096], is read index by index: the argument recast
  to [16384, 4096] and regrouped to [16384, 32, 128]; each group's infimum and supremum over rows and lanes (a host
  reduce over the two outer axes from `+∞` / `-∞`); the scale and zero point of each group; every entry quantized and
  dequantized; and the result regrouped back. At row `n`, column `j` that is the specification's value, since entry
  `(n, g, l)` of the regrouped array is entry `(n, 128·g + l)` of the recast argument.
-/
import proofs.«117061_j1211180777498_2_alg».proof.Proof.RefReadP
import proofs.«117061_j1211180777498_2_alg».proof.Proof.Spec
import proofs.«117061_j1211180777498_2_alg».proof.Proof.LibHostExtrema
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.ReadP Cert.Spec

/-- An argument array's contents. -/
abbrev Arg : Type := (⟨S4x4096x4096, .f32⟩ : BufTy).Contents (Elt Ideal)

/-- The argument recast to [16384, 4096]. -/
abbrev recast (x : Arg) : Mat := val_main_v0 (F := Ideal) x

/-- The regrouped array at `(n, g, l)` is the recast argument at `(n, 128·g + l)`. -/
theorem regroup_apply (x : Arg) (n : Fin 16384) (g : Fin 32) (l : Fin 128) :
    val_main_v1 (F := Ideal) x (ix3 n g l) = recast x (ix2 n (colOf g l)) := by
  rw [val_main_v1_apply]
  refine congrArg (val_main_v0 (F := Ideal) x) ?_
  have hn := n.isLt; have hg := g.isLt; have hl := l.isLt
  funext a
  apply Fin.ext
  match a with
  | ⟨0, _⟩ => show ((n.val * 32 + g.val) * 128 + l.val) / 4096 = n.val; omega
  | ⟨1, _⟩ => show ((n.val * 32 + g.val) * 128 + l.val) % 4096 = g.val * 128 + l.val; omega

/-- An index of the regrouped array drops to group `g` iff its middle coordinate is `g`. -/
theorem drop_iff (i : S16384x32x128.Idx) (g : Fin 32) :
    reducesTo_S16384x32x128_S32_d0_2.drop i = ix1 g ↔ (i 1).val = g.val := by
  constructor
  · intro h
    have := congrArg (fun k : S32.Idx => (k 0).val) h
    simpa [reducesTo_S16384x32x128_S32_d0_2.drop_apply_val_of_eq i 0 1] using this
  · intro h
    funext b
    apply Fin.ext
    match b with
    | ⟨0, _⟩ => exact (reducesTo_S16384x32x128_S32_d0_2.drop_apply_val_of_eq i 0 1).trans h

/-- The reference's group minimum is the specification's. -/
theorem grpMin_eq (x : Arg) (g : Fin 32) : val_main_v2 (F := Ideal) x (ix1 g) = gmin (recast x) g := by
  unfold val_main_v2
  rw [Cert.LibHostExtrema.hostReduce_min_inf _ _ _ _ (by
    show Ideal.ofBits .f32 0x7F800000#32 = ⊤
    simp [Ideal.ofBits, Ideal.ieee])]
  unfold gmin
  refine eq_of_forall_le_iff fun z => ?_
  rw [le_iInf₂_iff, le_iInf₂_iff]
  constructor
  · intro h n l
    have := h (ix3 n g l) ((drop_iff _ g).2 rfl)
    rwa [regroup_apply] at this
  · intro h i hi
    obtain ⟨n, g', l, rfl⟩ : ∃ (n : Fin 16384) (g' : Fin 32) (l : Fin 128), i = ix3 n g' l := ⟨i 0, i 1, i 2, eq_ix3 i⟩
    obtain rfl : g' = g := Fin.ext ((drop_iff _ g).1 hi)
    rw [regroup_apply]
    exact h n l

/-- The reference's group maximum is the specification's. -/
theorem grpMax_eq (x : Arg) (g : Fin 32) : val_main_v3 (F := Ideal) x (ix1 g) = gmax (recast x) g := by
  unfold val_main_v3
  rw [Cert.LibHostExtrema.hostReduce_max_sup _ _ _ _ (by
    show Ideal.ofBits .f32 0xFF800000#32 = ⊥
    simp [Ideal.ofBits, Ideal.ieee])]
  unfold gmax
  refine eq_of_forall_ge_iff fun z => ?_
  rw [iSup₂_le_iff, iSup₂_le_iff]
  constructor
  · intro h n l
    have := h (ix3 n g l) ((drop_iff _ g).2 rfl)
    rwa [regroup_apply] at this
  · intro h i hi
    obtain ⟨n, g', l, rfl⟩ : ∃ (n : Fin 16384) (g' : Fin 32) (l : Fin 128), i = ix3 n g' l := ⟨i 0, i 1, i 2, eq_ix3 i⟩
    obtain rfl : g' = g := Fin.ext ((drop_iff _ g).1 hi)
    rw [regroup_apply]
    exact h n l

/-- The scale of group `g`, as the reference computes it. -/
theorem scale_eq (x : Arg) (g : Fin 32) :
    val_main_v10 (F := Ideal) x (ix1 g) = scaleOf (gmin (recast x) g) (gmax (recast x) g) := by
  rw [val_main_v10_apply, val_main_v8_apply, val_main_v7_apply, val_main_v4_apply, val_main_v6_apply, val_main_v9_apply,
    val_main_v5_apply, val_main_cst_1_apply, val_main_cst_2_apply, grpMin_eq, grpMax_eq]
  rfl

/-- The zero point of group `g`, as the reference computes it. -/
theorem zp_eq (x : Arg) (g : Fin 32) :
    val_main_v14 (F := Ideal) x (ix1 g) = zpOf (gmin (recast x) g) (gmax (recast x) g) := by
  rw [val_main_v14_apply, val_main_v13_apply, val_main_cst_3_apply, val_main_v12_apply, val_main_v11_apply, scale_eq, grpMin_eq]
  rfl

/-- The middle coordinate of the regrouped index of `(n, j)` is `j`'s group. -/
theorem mid_group (n : Fin 16384) (j : Fin 4096) :
    (⟨((idx_main_v27 (ix2 n j)) 1).val, ((idx_main_v27 (ix2 n j)) 1).isLt⟩ : Fin 32) = groupOf j := by
  apply Fin.ext
  have hn := n.isLt; have hj := j.isLt
  show (n.val * 4096 + j.val) / 128 % 32 = j.val / 128
  omega

/-- The regrouped index of `(n, j)` reads the recast argument at `(n, j)`. -/
theorem back_apply (x : Arg) (n : Fin 16384) (j : Fin 4096) :
    val_main_v1 (F := Ideal) x (idx_main_v27 (ix2 n j)) = recast x (ix2 n j) := by
  rw [val_main_v1_apply]
  refine congrArg (val_main_v0 (F := Ideal) x) ?_
  have hn := n.isLt; have hj := j.isLt
  funext a
  apply Fin.ext
  match a with
  | ⟨0, _⟩ =>
    show ((((n.val * 4096 + j.val) / 4096) * 32 + (n.val * 4096 + j.val) / 128 % 32) * 128 + (n.val * 4096 + j.val) % 128) / 4096 = n.val
    omega
  | ⟨1, _⟩ =>
    show ((((n.val * 4096 + j.val) / 4096) * 32 + (n.val * 4096 + j.val) / 128 % 32) * 128 + (n.val * 4096 + j.val) % 128) % 4096 = j.val
    omega

/-- An entry of the regrouped result: the regrouped argument's entry quantized and dequantized with the scale and zero
    point of its middle coordinate's group. -/
theorem entry_apply (x : Arg) (i3 : S16384x32x128.Idx) :
    val_main_v26 (F := Ideal) x i3
      = qd (val_main_v1 (F := Ideal) x i3) (val_main_v10 (F := Ideal) x (ix1 (⟨(i3 1).val, (i3 1).isLt⟩ : Fin 32)))
          (val_main_v14 (F := Ideal) x (ix1 (⟨(i3 1).val, (i3 1).isLt⟩ : Fin 32))) := by
  have e17 : idx_main_v15 (idx_main_v17 i3) = ix1 (⟨(i3 1).val, (i3 1).isLt⟩ : Fin 32) :=
    funext fun a => match a with | ⟨0, _⟩ => rfl
  have e25 : idx_main_v15 (idx_main_v25 i3) = ix1 (⟨(i3 1).val, (i3 1).isLt⟩ : Fin 32) :=
    funext fun a => match a with | ⟨0, _⟩ => rfl
  have e19 : idx_main_v16 (idx_main_v19 i3) = ix1 (⟨(i3 1).val, (i3 1).isLt⟩ : Fin 32) :=
    funext fun a => match a with | ⟨0, _⟩ => rfl
  have e23 : idx_main_v16 (idx_main_v23 i3) = ix1 (⟨(i3 1).val, (i3 1).isLt⟩ : Fin 32) :=
    funext fun a => match a with | ⟨0, _⟩ => rfl
  rw [val_main_v26_apply, val_main_v24_apply, val_main_v25_apply, val_main_v23_apply, val_main_v22_apply,
    val_main_call3_v4_apply, val_main_call3_v3_apply, val_main_call3_v2_apply, val_main_call3_v1_apply, val_main_call3_v0_apply,
    val_main_v21_apply, val_main_v20_apply, val_main_v19_apply, val_main_v18_apply, val_main_v17_apply,
    val_main_cst_4_apply, val_main_cst_5_apply]
  simp only [val_main_v15_apply, val_main_v16_apply, e17, e25, e19, e23]
  generalize val_main_v1 (F := Ideal) x i3 = a
  generalize val_main_v10 (F := Ideal) x (ix1 (⟨(i3 1).val, (i3 1).isLt⟩ : Fin 32)) = s
  generalize val_main_v14 (F := Ideal) x (ix1 (⟨(i3 1).val, (i3 1).isLt⟩ : Fin 32)) = z
  rfl

/-- The reference's [16384, 4096] result is the specification of the recast argument. -/
theorem result_eq (x : Arg) : val_main_v27 (F := Ideal) x = QD (recast x) := by
  funext i
  obtain ⟨n, j, rfl⟩ : ∃ (n : Fin 16384) (j : Fin 4096), i = ix2 n j := ⟨i 0, i 1, eq_ix2 i⟩
  rw [val_main_v27_apply, entry_apply, mid_group, scale_eq, zp_eq, back_apply]
  rfl

end Cert.ReferenceIdeal.RefValue

end
-- ==== Proof.RefValueV.lean ====
/-
  The reference computes the specification (its second result, from its second argument).

  Its result for one argument, before the final recast to [4, 4096, 4096], is read index by index: the argument recast
  to [16384, 4096] and regrouped to [16384, 32, 128]; each group's infimum and supremum over rows and lanes (a host
  reduce over the two outer axes from `+∞` / `-∞`); the scale and zero point of each group; every entry quantized and
  dequantized; and the result regrouped back. At row `n`, column `j` that is the specification's value, since entry
  `(n, g, l)` of the regrouped array is entry `(n, 128·g + l)` of the recast argument.
-/
import proofs.«117061_j1211180777498_2_alg».proof.Proof.RefReadP
import proofs.«117061_j1211180777498_2_alg».proof.Proof.Spec
import proofs.«117061_j1211180777498_2_alg».proof.Proof.LibHostExtrema
import Idealize.ShloMosaic.PureOps.Ideal.Laws
import Idealize.ShloMosaic.Lib.ValueIdx

noncomputable section

namespace Cert.ReferenceIdeal.RefValueV

open Idealize.ShloMosaic Idealize.ShloMosaic.ValueIdx Cert.ReferenceIdeal Cert.ReferenceIdeal.Gen Cert.ReferenceIdeal.ReadP Cert.Spec

/-- An argument array's contents. -/
abbrev Arg : Type := (⟨S4x4096x4096, .f32⟩ : BufTy).Contents (Elt Ideal)

/-- The argument recast to [16384, 4096]. -/
abbrev recast (x : Arg) : Mat := val_main_v29 (F := Ideal) x

/-- The regrouped array at `(n, g, l)` is the recast argument at `(n, 128·g + l)`. -/
theorem regroup_apply (x : Arg) (n : Fin 16384) (g : Fin 32) (l : Fin 128) :
    val_main_v30 (F := Ideal) x (ix3 n g l) = recast x (ix2 n (colOf g l)) := by
  rw [val_main_v30_apply]
  refine congrArg (val_main_v29 (F := Ideal) x) ?_
  have hn := n.isLt; have hg := g.isLt; have hl := l.isLt
  funext a
  apply Fin.ext
  match a with
  | ⟨0, _⟩ => show ((n.val * 32 + g.val) * 128 + l.val) / 4096 = n.val; omega
  | ⟨1, _⟩ => show ((n.val * 32 + g.val) * 128 + l.val) % 4096 = g.val * 128 + l.val; omega

/-- An index of the regrouped array drops to group `g` iff its middle coordinate is `g`. -/
theorem drop_iff (i : S16384x32x128.Idx) (g : Fin 32) :
    reducesTo_S16384x32x128_S32_d0_2.drop i = ix1 g ↔ (i 1).val = g.val := by
  constructor
  · intro h
    have := congrArg (fun k : S32.Idx => (k 0).val) h
    simpa [reducesTo_S16384x32x128_S32_d0_2.drop_apply_val_of_eq i 0 1] using this
  · intro h
    funext b
    apply Fin.ext
    match b with
    | ⟨0, _⟩ => exact (reducesTo_S16384x32x128_S32_d0_2.drop_apply_val_of_eq i 0 1).trans h

/-- The reference's group minimum is the specification's. -/
theorem grpMin_eq (x : Arg) (g : Fin 32) : val_main_v31 (F := Ideal) x (ix1 g) = gmin (recast x) g := by
  unfold val_main_v31
  rw [Cert.LibHostExtrema.hostReduce_min_inf _ _ _ _ (by
    show Ideal.ofBits .f32 0x7F800000#32 = ⊤
    simp [Ideal.ofBits, Ideal.ieee])]
  unfold gmin
  refine eq_of_forall_le_iff fun z => ?_
  rw [le_iInf₂_iff, le_iInf₂_iff]
  constructor
  · intro h n l
    have := h (ix3 n g l) ((drop_iff _ g).2 rfl)
    rwa [regroup_apply] at this
  · intro h i hi
    obtain ⟨n, g', l, rfl⟩ : ∃ (n : Fin 16384) (g' : Fin 32) (l : Fin 128), i = ix3 n g' l := ⟨i 0, i 1, i 2, eq_ix3 i⟩
    obtain rfl : g' = g := Fin.ext ((drop_iff _ g).1 hi)
    rw [regroup_apply]
    exact h n l

/-- The reference's group maximum is the specification's. -/
theorem grpMax_eq (x : Arg) (g : Fin 32) : val_main_v32 (F := Ideal) x (ix1 g) = gmax (recast x) g := by
  unfold val_main_v32
  rw [Cert.LibHostExtrema.hostReduce_max_sup _ _ _ _ (by
    show Ideal.ofBits .f32 0xFF800000#32 = ⊥
    simp [Ideal.ofBits, Ideal.ieee])]
  unfold gmax
  refine eq_of_forall_ge_iff fun z => ?_
  rw [iSup₂_le_iff, iSup₂_le_iff]
  constructor
  · intro h n l
    have := h (ix3 n g l) ((drop_iff _ g).2 rfl)
    rwa [regroup_apply] at this
  · intro h i hi
    obtain ⟨n, g', l, rfl⟩ : ∃ (n : Fin 16384) (g' : Fin 32) (l : Fin 128), i = ix3 n g' l := ⟨i 0, i 1, i 2, eq_ix3 i⟩
    obtain rfl : g' = g := Fin.ext ((drop_iff _ g).1 hi)
    rw [regroup_apply]
    exact h n l

/-- The scale of group `g`, as the reference computes it. -/
theorem scale_eq (x : Arg) (g : Fin 32) :
    val_main_v39 (F := Ideal) x (ix1 g) = scaleOf (gmin (recast x) g) (gmax (recast x) g) := by
  rw [val_main_v39_apply, val_main_v37_apply, val_main_v36_apply, val_main_v33_apply, val_main_v35_apply, val_main_v38_apply,
    val_main_v34_apply, val_main_cst_8_apply, val_main_cst_9_apply, grpMin_eq, grpMax_eq]
  rfl

/-- The zero point of group `g`, as the reference computes it. -/
theorem zp_eq (x : Arg) (g : Fin 32) :
    val_main_v43 (F := Ideal) x (ix1 g) = zpOf (gmin (recast x) g) (gmax (recast x) g) := by
  rw [val_main_v43_apply, val_main_v42_apply, val_main_cst_10_apply, val_main_v41_apply, val_main_v40_apply, scale_eq, grpMin_eq]
  rfl

/-- The middle coordinate of the regrouped index of `(n, j)` is `j`'s group. -/
theorem mid_group (n : Fin 16384) (j : Fin 4096) :
    (⟨((idx_main_v56 (ix2 n j)) 1).val, ((idx_main_v56 (ix2 n j)) 1).isLt⟩ : Fin 32) = groupOf j := by
  apply Fin.ext
  have hn := n.isLt; have hj := j.isLt
  show (n.val * 4096 + j.val) / 128 % 32 = j.val / 128
  omega

/-- The regrouped index of `(n, j)` reads the recast argument at `(n, j)`. -/
theorem back_apply (x : Arg) (n : Fin 16384) (j : Fin 4096) :
    val_main_v30 (F := Ideal) x (idx_main_v56 (ix2 n j)) = recast x (ix2 n j) := by
  rw [val_main_v30_apply]
  refine congrArg (val_main_v29 (F := Ideal) x) ?_
  have hn := n.isLt; have hj := j.isLt
  funext a
  apply Fin.ext
  match a with
  | ⟨0, _⟩ =>
    show ((((n.val * 4096 + j.val) / 4096) * 32 + (n.val * 4096 + j.val) / 128 % 32) * 128 + (n.val * 4096 + j.val) % 128) / 4096 = n.val
    omega
  | ⟨1, _⟩ =>
    show ((((n.val * 4096 + j.val) / 4096) * 32 + (n.val * 4096 + j.val) / 128 % 32) * 128 + (n.val * 4096 + j.val) % 128) % 4096 = j.val
    omega

/-- An entry of the regrouped result: the regrouped argument's entry quantized and dequantized with the scale and zero
    point of its middle coordinate's group. -/
theorem entry_apply (x : Arg) (i3 : S16384x32x128.Idx) :
    val_main_v55 (F := Ideal) x i3
      = qd (val_main_v30 (F := Ideal) x i3) (val_main_v39 (F := Ideal) x (ix1 (⟨(i3 1).val, (i3 1).isLt⟩ : Fin 32)))
          (val_main_v43 (F := Ideal) x (ix1 (⟨(i3 1).val, (i3 1).isLt⟩ : Fin 32))) := by
  have e17 : idx_main_v44 (idx_main_v46 i3) = ix1 (⟨(i3 1).val, (i3 1).isLt⟩ : Fin 32) :=
    funext fun a => match a with | ⟨0, _⟩ => rfl
  have e25 : idx_main_v44 (idx_main_v54 i3) = ix1 (⟨(i3 1).val, (i3 1).isLt⟩ : Fin 32) :=
    funext fun a => match a with | ⟨0, _⟩ => rfl
  have e19 : idx_main_v45 (idx_main_v48 i3) = ix1 (⟨(i3 1).val, (i3 1).isLt⟩ : Fin 32) :=
    funext fun a => match a with | ⟨0, _⟩ => rfl
  have e23 : idx_main_v45 (idx_main_v52 i3) = ix1 (⟨(i3 1).val, (i3 1).isLt⟩ : Fin 32) :=
    funext fun a => match a with | ⟨0, _⟩ => rfl
  rw [val_main_v55_apply, val_main_v53_apply, val_main_v54_apply, val_main_v52_apply, val_main_v51_apply,
    val_main_call7_v4_apply, val_main_call7_v3_apply, val_main_call7_v2_apply, val_main_call7_v1_apply, val_main_call7_v0_apply,
    val_main_v50_apply, val_main_v49_apply, val_main_v48_apply, val_main_v47_apply, val_main_v46_apply,
    val_main_cst_11_apply, val_main_cst_12_apply]
  simp only [val_main_v44_apply, val_main_v45_apply, e17, e25, e19, e23]
  generalize val_main_v30 (F := Ideal) x i3 = a
  generalize val_main_v39 (F := Ideal) x (ix1 (⟨(i3 1).val, (i3 1).isLt⟩ : Fin 32)) = s
  generalize val_main_v43 (F := Ideal) x (ix1 (⟨(i3 1).val, (i3 1).isLt⟩ : Fin 32)) = z
  rfl

/-- The reference's [16384, 4096] result is the specification of the recast argument. -/
theorem result_eq (x : Arg) : val_main_v56 (F := Ideal) x = QD (recast x) := by
  funext i
  obtain ⟨n, j, rfl⟩ : ∃ (n : Fin 16384) (j : Fin 4096), i = ix2 n j := ⟨i 0, i 1, eq_ix2 i⟩
  rw [val_main_v56_apply, entry_apply, mid_group, scale_eq, zp_eq, back_apply]
  rfl

end Cert.ReferenceIdeal.RefValueV

end
-- ==== Proof.LibMinReduce.lean ====
/-
  Minimum reductions over one axis, on the extended reals.

  * `fold_min_top`: folding `min` from the top element over all of a finite type gives the infimum of the family
    (both are characterised by: `z` is below the result iff `z` is below every member).
  * `multiReduction_minimumf_single`: a vector min-reduction over one axis, read with exact values, is at each result
    index the fold of `min` from the accumulator's value over that axis's coordinates (the companion of the library's
    statement for the maximum).
  * `multiReduction_minimumf_inf`: with the accumulator `+∞` that fold is the infimum over the axis.
-/
import Idealize.ShloMosaic.PureOps.Ideal.Laws

noncomputable section

namespace Cert.LibMinReduce

open Idealize.ShloMosaic

/-- Folding `min` from `⊤` over a whole finite type is the infimum of the family. -/
theorem fold_min_top {ι : Type*} [Fintype ι] (f : ι → EReal) :
    (Finset.univ : Finset ι).fold min ⊤ f = ⨅ k, f k := by
  refine eq_of_forall_le_iff fun z => ?_
  rw [Finset.le_fold_min, le_iInf_iff]
  exact ⟨fun h k => h.2 k (Finset.mem_univ k), fun h => ⟨le_top, fun k _ => h k⟩⟩

/-- The f32 pattern of `+∞` is the top extended real. -/
theorem ofBits_inf : Ideal.ofBits .f32 0x7F800000#32 = (⊤ : EReal) := by
  simp [Ideal.ofBits, Ideal.ieee]

variable {φ : FTy}

/-- A float min-reduction over one axis, read with exact values: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the accumulator `+∞` (f32), a min-reduction over one axis is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf, fold_min_top]
  rfl

end Cert.LibMinReduce

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.Tile.lean ====
/-
  One grid step of the first pass, read at an index, with exact values.

  The step takes a [512, 4096] block `x` of rows and the running [8, 4096] accumulator `xo` (eight identical rows).
  Its new minimum accumulator holds, at row `r` and column `j`, the minimum of the old entry and the infimum of
  column `j` over the block's 512 rows; the maximum accumulator the maximum of the old entry and the supremum.
  The reset values are the constant arrays `+∞` and `-∞`.
-/
import proofs.«117061_j1211180777498_2_alg».proof.Proof.Gen.KernelIdeal.Skeleton
import proofs.«117061_j1211180777498_2_alg».proof.Proof.LibMinReduce
import proofs.«117061_j1211180777498_2_alg».proof.Proof.LibMaxReduce
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen

/-- Inserting row `k` above column `j`: the index `(k, j)` of the block. -/
theorem lift_rows (h : S512x4096.Reduces [0] S4096) (j : Fin 4096) (k : Fin 512) :
    h.lift (ix1 j) k = ix2 k j := by
  funext c
  apply Fin.ext
  match c with
  | ⟨0, _⟩ => rfl
  | ⟨1, _⟩ => rfl

/-- The reset value of the minimum accumulator is `+∞` everywhere. -/
theorem pay1_apply (i : S8x4096.Idx) : k0_pay1 (F := Ideal) i = (⊤ : EReal) := by
  unfold k0_pay1
  exact Cert.LibMinReduce.ofBits_inf

/-- The reset value of the maximum accumulator is `-∞` everywhere. -/
theorem pay2_apply (i : S8x4096.Idx) : k0_pay2 (F := Ideal) i = (⊥ : EReal) := by
  unfold k0_pay2
  exact Cert.LibMaxReduce.ofBits_neg_inf

/-- The new minimum accumulator: the old entry against the block's column infimum. -/
theorem pay3_apply (x : Vec Ideal S512x4096 .f32) (xo : Vec Ideal S8x4096 .f32) (r : Fin 8) (j : Fin 4096) :
    k0_pay3 (F := Ideal) x xo (ix2 r j) = min (xo (ix2 r j)) (⨅ k : Fin 512, x (ix2 k j)) := by
  unfold k0_pay3
  refine congrArg₂ min ?_ ?_
  · exact congrFun (shapeCast_self xo _) (ix2 r j)
  · refine (broadcastTo_1b_ab_apply _ _ r j).trans ?_
    rw [shapeCast_self]
    refine (shapeCast_a_1a_apply _ _ 0 j).trans ?_
    refine (Cert.LibMinReduce.multiReduction_minimumf_inf _ _ _ _ (ix1 j)).trans ?_
    refine iInf_congr fun k => ?_
    rw [shapeCast_self]
    exact congrArg x (lift_rows _ j k)

/-- The new maximum accumulator: the old entry against the block's column supremum. -/
theorem pay4_apply (x : Vec Ideal S512x4096 .f32) (xo : Vec Ideal S8x4096 .f32) (r : Fin 8) (j : Fin 4096) :
    k0_pay4 (F := Ideal) x xo (ix2 r j) = max (xo (ix2 r j)) (⨆ k : Fin 512, x (ix2 k j)) := by
  unfold k0_pay4
  refine congrArg₂ max ?_ ?_
  · exact congrFun (shapeCast_self xo _) (ix2 r j)
  · refine (broadcastTo_1b_ab_apply _ _ r j).trans ?_
    rw [shapeCast_self]
    refine (shapeCast_a_1a_apply _ _ 0 j).trans ?_
    refine (Cert.LibMaxReduce.multiReduction_maximumf_sup _ _ _ _ (ix1 j)).trans ?_
    refine iSup_congr fun k => ?_
    rw [shapeCast_self]
    exact congrArg x (lift_rows _ j k)

end Cert.KernelIdeal.Tile

end
-- ==== Proof.LibExtremaRange.lean ====
/-
  Infima and suprema of an extended-real family over a range of consecutive indices of `Fin N`.

  For `f : Fin N → EReal`, `infRange f lo hi` is the infimum of `f k` over the indices with `lo ≤ k < hi`, and
  `supRange f lo hi` the supremum. An empty range gives `⊤` (resp. `⊥`); two adjacent ranges combine by `min`
  (resp. `max`); a range of `W` consecutive indices is the infimum (supremum) over `Fin W` of the shifted family;
  the range `[0, N)` is the whole infimum (supremum). These are what a running minimum or maximum, accumulated
  block of rows after block of rows, needs in order to be named in closed form.
-/
import Mathlib.Data.EReal.Basic

namespace Cert.LibExtremaRange

/-- The infimum of `f` over the indices `k` with `lo ≤ k < hi`. -/
noncomputable def infRange {N : ℕ} (f : Fin N → EReal) (lo hi : ℕ) : EReal :=
  ⨅ (k : Fin N) (_ : lo ≤ k.val ∧ k.val < hi), f k

/-- The supremum of `f` over the indices `k` with `lo ≤ k < hi`. -/
noncomputable def supRange {N : ℕ} (f : Fin N → EReal) (lo hi : ℕ) : EReal :=
  ⨆ (k : Fin N) (_ : lo ≤ k.val ∧ k.val < hi), f k

theorem le_infRange_iff {N : ℕ} (f : Fin N → EReal) (lo hi : ℕ) (c : EReal) :
    c ≤ infRange f lo hi ↔ ∀ k : Fin N, lo ≤ k.val → k.val < hi → c ≤ f k := by
  unfold infRange
  rw [le_iInf₂_iff]
  exact ⟨fun h k h1 h2 => h k ⟨h1, h2⟩, fun h k hk => h k hk.1 hk.2⟩

theorem supRange_le_iff {N : ℕ} (f : Fin N → EReal) (lo hi : ℕ) (c : EReal) :
    supRange f lo hi ≤ c ↔ ∀ k : Fin N, lo ≤ k.val → k.val < hi → f k ≤ c := by
  unfold supRange
  rw [iSup₂_le_iff]
  exact ⟨fun h k h1 h2 => h k ⟨h1, h2⟩, fun h k hk => h k hk.1 hk.2⟩

/-- Over an empty range the infimum is `⊤`. -/
theorem infRange_empty {N : ℕ} (f : Fin N → EReal) (lo hi : ℕ) (h : hi ≤ lo) : infRange f lo hi = ⊤ := by
  refine top_unique ((le_infRange_iff f lo hi ⊤).2 fun k h1 h2 => ?_)
  omega

/-- Over an empty range the supremum is `⊥`. -/
theorem supRange_empty {N : ℕ} (f : Fin N → EReal) (lo hi : ℕ) (h : hi ≤ lo) : supRange f lo hi = ⊥ := by
  refine bot_unique ((supRange_le_iff f lo hi ⊥).2 fun k h1 h2 => ?_)
  omega

/-- Two adjacent ranges: the infimum over `[lo, hi)` is the minimum of those over `[lo, mid)` and `[mid, hi)`. -/
theorem infRange_append {N : ℕ} (f : Fin N → EReal) (lo mid hi : ℕ) (h1 : lo ≤ mid) (h2 : mid ≤ hi) :
    min (infRange f lo mid) (infRange f mid hi) = infRange f lo hi := by
  refine eq_of_forall_le_iff fun c => ?_
  rw [le_min_iff, le_infRange_iff, le_infRange_iff, le_infRange_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- Two adjacent ranges: the supremum over `[lo, hi)` is the maximum of those over `[lo, mid)` and `[mid, hi)`. -/
theorem supRange_append {N : ℕ} (f : Fin N → EReal) (lo mid hi : ℕ) (h1 : lo ≤ mid) (h2 : mid ≤ hi) :
    max (supRange f lo mid) (supRange f mid hi) = supRange f lo hi := by
  refine eq_of_forall_ge_iff fun c => ?_
  rw [max_le_iff, supRange_le_iff, supRange_le_iff, supRange_le_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- A range of `W` consecutive indices starting at `lo`: the infimum over `Fin W` of the shifted family. -/
theorem infRange_block {N : ℕ} (f : Fin N → EReal) (lo W : ℕ) (h : lo + W ≤ N) :
    infRange f lo (lo + W) = ⨅ q : Fin W, f ⟨lo + q.val, by have := q.isLt; omega⟩ := by
  refine eq_of_forall_le_iff fun c => ?_
  rw [le_infRange_iff, le_iInf_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- A range of `W` consecutive indices starting at `lo`: the supremum over `Fin W` of the shifted family. -/
theorem supRange_block {N : ℕ} (f : Fin N → EReal) (lo W : ℕ) (h : lo + W ≤ N) :
    supRange f lo (lo + W) = ⨆ q : Fin W, f ⟨lo + q.val, by have := q.isLt; omega⟩ := by
  refine eq_of_forall_ge_iff fun c => ?_
  rw [supRange_le_iff, iSup_le_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- The range `[0, N)` is every index. -/
theorem infRange_all {N : ℕ} (f : Fin N → EReal) : infRange f 0 N = ⨅ k, f k := by
  refine eq_of_forall_le_iff fun c => ?_
  rw [le_infRange_iff, le_iInf_iff]
  exact ⟨fun hh k => hh k (Nat.zero_le _) k.isLt, fun hh k _ _ => hh k⟩

/-- The range `[0, N)` is every index. -/
theorem supRange_all {N : ℕ} (f : Fin N → EReal) : supRange f 0 N = ⨆ k, f k := by
  refine eq_of_forall_ge_iff fun c => ?_
  rw [supRange_le_iff, iSup_le_iff]
  exact ⟨fun hh k => hh k (Nat.zero_le _) k.isLt, fun hh k _ _ => hh k⟩

end Cert.LibExtremaRange
-- ==== Proof.GroupExtrema.lean ====
/-
  The law that joins the two arrangements of a group's extrema.

  The infimum of a group over all 16384 rows and its 128 columns can be taken column by column, and within a column
  as the minimum of the infimum over the first 8192 rows and the infimum over the last 8192 rows; the same for the
  supremum. Only the lattice structure of the extended reals is used: no finiteness.
-/
import proofs.«117061_j1211180777498_2_alg».proof.Proof.Spec
import proofs.«117061_j1211180777498_2_alg».proof.Proof.LibExtremaRange

noncomputable section

namespace Cert.GroupExtrema

open Idealize.ShloMosaic Idealize.ShloMosaic.ValueIdx Cert.Spec Cert.LibExtremaRange

/-- Column `j`'s infimum over the rows `lo ≤ n < hi`. -/
def colInf (X : Mat) (j : Fin 4096) (lo hi : ℕ) : EReal := infRange (fun n : Fin 16384 => X (ix2 n j)) lo hi

/-- Column `j`'s supremum over the rows `lo ≤ n < hi`. -/
def colSup (X : Mat) (j : Fin 4096) (lo hi : ℕ) : EReal := supRange (fun n : Fin 16384 => X (ix2 n j)) lo hi

/-- A group's infimum from the two half-column infima of each of its columns. -/
theorem gmin_of_halves (X : Mat) (g : Fin 32) :
    (⨅ l : Fin 128, min (colInf X (colOf g l) 0 8192) (colInf X (colOf g l) 8192 16384)) = gmin X g := by
  unfold gmin colInf
  rw [iInf_comm]
  refine iInf_congr fun l => ?_
  rw [infRange_append _ 0 8192 16384 (by omega) (by omega), infRange_all]

/-- A group's supremum from the two half-column suprema of each of its columns. -/
theorem gmax_of_halves (X : Mat) (g : Fin 32) :
    (⨆ l : Fin 128, max (colSup X (colOf g l) 0 8192) (colSup X (colOf g l) 8192 16384)) = gmax X g := by
  unfold gmax colSup
  rw [iSup_comm]
  refine iSup_congr fun l => ?_
  rw [supRange_append _ 0 8192 16384 (by omega) (by omega), supRange_all]

/-- The [16, 4096] array of half-column infima: row `q` holds, at column `j`, the infimum of column `j` over the 8192 rows
    of half `q / 8`. -/
def minArr (Y : Mat) : (⟨2, ![16, 4096]⟩ : Shape).Idx → EReal :=
  fun i => colInf Y (i 1) (8192 * ((i 0).val / 8)) (8192 * ((i 0).val / 8) + 8192)

/-- The [16, 4096] array of half-column suprema. -/
def maxArr (Y : Mat) : (⟨2, ![16, 4096]⟩ : Shape).Idx → EReal :=
  fun i => colSup Y (i 1) (8192 * ((i 0).val / 8)) (8192 * ((i 0).val / 8) + 8192)

theorem minArr_apply (Y : Mat) (q : Fin 16) (j : Fin 4096) :
    minArr Y (ix2 q j) = colInf Y j (8192 * (q.val / 8)) (8192 * (q.val / 8) + 8192) := rfl
theorem maxArr_apply (Y : Mat) (q : Fin 16) (j : Fin 4096) :
    maxArr Y (ix2 q j) = colSup Y j (8192 * (q.val / 8)) (8192 * (q.val / 8) + 8192) := rfl

theorem minArr_row0 (Y : Mat) (j : Fin 4096) : minArr Y (ix2 (0 : Fin 16) j) = colInf Y j 0 8192 := by
  rw [minArr_apply]; rfl
theorem minArr_row8 (Y : Mat) (j : Fin 4096) : minArr Y (ix2 (8 : Fin 16) j) = colInf Y j 8192 16384 := by
  rw [minArr_apply]; rfl
theorem maxArr_row0 (Y : Mat) (j : Fin 4096) : maxArr Y (ix2 (0 : Fin 16) j) = colSup Y j 0 8192 := by
  rw [maxArr_apply]; rfl
theorem maxArr_row8 (Y : Mat) (j : Fin 4096) : maxArr Y (ix2 (8 : Fin 16) j) = colSup Y j 8192 16384 := by
  rw [maxArr_apply]; rfl

end Cert.GroupExtrema

end
-- ==== Proof.Pass1.lean ====
/-
  The first pass over one [16384, 4096] array `X`: what its two [16, 4096] result arrays hold, with exact values.

  The grid has 32 points; point `t` reads rows `512·t … 512·t + 511` of `X`, and the points `16·p … 16·p + 15` share
  one [8, 4096] accumulator block per result, reset at the first of them and written back after the last, into rows
  `8·p … 8·p + 7` of the result. After point `n` the minimum accumulator holds, in every row, the column infimum over
  the rows `8192·(n / 16) ≤ k < 512·(n + 1)` of `X` (induction on the point: a reset starts from `+∞`, every other
  point extends the range by its 512 rows), and the maximum accumulator the column supremum over the same rows. So
  result row `q` ends holding the column infimum (supremum) over the rows `8192·(q / 8) ≤ k < 8192·(q / 8) + 8192`.
-/
import proofs.«117061_j1211180777498_2_alg».proof.Proof.Gen.KernelIdeal.Frame
import proofs.«117061_j1211180777498_2_alg».proof.Proof.Tile
import proofs.«117061_j1211180777498_2_alg».proof.Proof.GroupExtrema
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen Cert.Spec Cert.GroupExtrema Cert.LibExtremaRange Cert.KernelIdeal.Tile

variable (V : (c : Dev nD) → (b : Ref sig .tc) → Buf (Elt Ideal) ((c : Thread nD τ).loc b))

theorem hz : (![0, 0] : Fin 2 → Nat) = fun _ => 0 := funext fun a => by fin_cases a <;> rfl

/-! ## What one step leaves in the accumulators -/

/-- A step that does not reset leaves the running minimum of the old accumulator and the block. -/
theorem stepMin (c : Dev nD) (i : grid0.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : ¬cond0_0 i) (x : Vec Ideal S512x4096 .f32) (xo1 xo2 : Vec Ideal S8x4096 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz]
  simp only [View.readAt_eq_ld, h2.read_unread, h3.read_unread, View.ld_unit_zero (S := S512x4096) hz,
    View.ld_unit_zero (S := S8x4096) hz]

/-- A step that does not reset leaves the running maximum of the old accumulator and the block. -/
theorem stepMax (c : Dev nD) (i : grid0.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : ¬cond0_0 i) (x : Vec Ideal S512x4096 .f32) (xo1 xo2 : Vec Ideal S8x4096 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz]
  simp only [View.readAt_eq_ld, h2.read_unread, h4.read_unread, View.ld_unit_zero (S := S512x4096) hz,
    View.ld_unit_zero (S := S8x4096) hz]

/-- A resetting step leaves the minimum of the constant `+∞` array and the block. -/
theorem resetMin (c : Dev nD) (i : grid0.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : cond0_0 i) (x : Vec Ideal S512x4096 .f32) :
    out0_A_1 c i a2 h2 a3 h3 a4 h4 hc x = k0_pay3 x (k0_pay1 (F := Ideal)) := by
  unfold out0_A_1
  rw [View.read_writes_eq_canon _ _ _ (cover0_A_1 c i a2 h2 a3 h3 a4 h4 hc x)]
  unfold kernelRun0_A
  dsimp only
  sl_unfold_words
  rw [View.canon_cons_unit_zero (S := S8x4096) hz, View.readCov_unit_zero (S := S8x4096) _ hz]
  simp only [View.readAt_eq_ld, h2.read_unread, View.ld_unit_zero (S := S512x4096) hz]

/-- A resetting step leaves the maximum of the constant `-∞` array and the block. -/
theorem resetMax (c : Dev nD) (i : grid0.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : cond0_0 i) (x : Vec Ideal S512x4096 .f32) :
    out0_A_2 c i a2 h2 a3 h3 a4 h4 hc x = k0_pay4 x (k0_pay2 (F := Ideal)) := by
  unfold out0_A_2
  rw [View.read_writes_eq_canon _ _ _ (cover0_A_2 c i a2 h2 a3 h3 a4 h4 hc x)]
  unfold kernelRun0_A
  dsimp only
  sl_unfold_words
  rw [View.canon_cons_unit_zero (S := S8x4096) hz, View.readCov_unit_zero (S := S8x4096) _ hz]
  simp only [View.readAt_eq_ld, h2.read_unread, View.ld_unit_zero (S := S512x4096) hz]

/-! ## The blocks -/

/-- The block indices of the three windows at point `t`: the rows' block is `t`, both results' block is `t / 16`. -/
theorem idx_facts : ∀ t : Fin cfg0.N, win0_0.index t (0 : Fin 2) = t.val ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0 :=
  (by decide +kernel : ∀ t : Fin grid0.N, _)

/-- The array of rows as the region finds it. -/
abbrev X (c : Dev nD) : Mat := V c main_v0

/-- Point `t`'s block of rows reads the array at row `512·t + k`. -/
theorem rows_apply (c : Dev nD) (t : Fin cfg0.N) (k : Fin 512) (j : Fin 4096) (hk : 512 * t.val + k.val < 16384) :
    (iblk0 V c 0 t : Vec Ideal S512x4096 .f32) (ix2 k j) = X V c (ix2 ⟨512 * t.val + k.val, hk⟩ j) := by
  obtain ⟨e0, e1, -⟩ := idx_facts t
  unfold iblk0
  rw [View.read_apply]
  show V c main_v0 _ = V c main_v0 _
  refine congrArg (V c main_v0) ?_
  funext a
  apply Fin.ext
  match a with
  | ⟨0, _⟩ => show win0_0.index t (0 : Fin 2) * 512 + 1 * k.val = 512 * t.val + k.val; omega
  | ⟨1, _⟩ => show win0_0.index t (1 : Fin 2) * 4096 + 1 * j.val = j.val; omega

/-- The column infimum of a block of 512 rows that reads `Y` from row `512·t` on is the column infimum of `Y` over those rows. -/
theorem blockInf (Y : Mat) (x : Vec Ideal S512x4096 .f32) (t : ℕ) (ht : t < 32) (j : Fin 4096)
    (hx : ∀ k : Fin 512, x (ix2 k j) = Y (ix2 ⟨512 * t + k.val, by have := k.isLt; omega⟩ j)) :
    (⨅ k : Fin 512, x (ix2 k j)) = colInf Y j (512 * t) (512 * t + 512) := by
  unfold colInf
  rw [infRange_block _ (512 * t) 512 (by omega)]
  exact iInf_congr hx

/-- The column supremum of a block of 512 rows that reads `Y` from row `512·t` on is the column supremum of `Y` over those rows. -/
theorem blockSup (Y : Mat) (x : Vec Ideal S512x4096 .f32) (t : ℕ) (ht : t < 32) (j : Fin 4096)
    (hx : ∀ k : Fin 512, x (ix2 k j) = Y (ix2 ⟨512 * t + k.val, by have := k.isLt; omega⟩ j)) :
    (⨆ k : Fin 512, x (ix2 k j)) = colSup Y j (512 * t) (512 * t + 512) := by
  unfold colSup
  rw [supRange_block _ (512 * t) 512 (by omega)]
  exact iSup_congr hx

/-! ## The accumulators after each point -/

/-- After point `n` both accumulators hold, in every row, the column extrema over the rows read since the last reset. -/
theorem acc_eq (c : Dev nD) : ∀ (n : ℕ) (h : n < cfg0.N) (r : Fin 8) (j : Fin 4096),
    (outsAt0 V c n h).1 (ix2 r j) = colInf (X V c) j (8192 * (n / 16)) (512 * (n + 1))
    ∧ (outsAt0 V c n h).2 (ix2 r j) = colSup (X V c) j (8192 * (n / 16)) (512 * (n + 1)) := by
  intro n
  induction n with
  | zero =>
    intro h r j
    rw [outsAt0_A V c ⟨0, h⟩ rfl]
    dsimp only
    rw [resetMin, resetMax, pay3_apply, pay4_apply, pay1_apply, pay2_apply,
      blockInf (X V c) _ 0 (by omega) j (fun k => rows_apply V c ⟨0, h⟩ k j _),
      blockSup (X V c) _ 0 (by omega) j (fun k => rows_apply V c ⟨0, h⟩ k j _)]
    unfold colInf colSup
    constructor
    · rw [← infRange_empty (fun n : Fin 16384 => X V c (ix2 n j)) 0 0 (le_refl _)]
      exact infRange_append _ 0 0 512 (by omega) (by omega)
    · rw [← supRange_empty (fun n : Fin 16384 => X V c (ix2 n j)) 0 0 (le_refl _)]
      exact supRange_append _ 0 0 512 (by omega) (by omega)
  | succ n ih =>
    intro h r j
    have hN : n + 1 < 32 := lt_of_lt_of_eq h N_0
    by_cases h0 : (n + 1) % 16 = 0
    · rw [outsAt0_A V c ⟨n + 1, h⟩ h0]
      dsimp only
      rw [resetMin, resetMax, pay3_apply, pay4_apply, pay1_apply, pay2_apply,
        blockInf (X V c) _ (n + 1) hN j (fun k => rows_apply V c ⟨n + 1, h⟩ k j _),
        blockSup (X V c) _ (n + 1) hN j (fun k => rows_apply V c ⟨n + 1, h⟩ k j _)]
      unfold colInf colSup
      have e1 : 8192 * ((n + 1) / 16) = 512 * (n + 1) := by omega
      have e2 : 512 * (n + 1) + 512 = 512 * (n + 1 + 1) := by omega
      constructor
      · rw [← infRange_empty (fun n : Fin 16384 => X V c (ix2 n j)) (512 * (n + 1)) (512 * (n + 1)) (le_refl _), e1, ← e2]
        exact infRange_append _ _ _ _ (by omega) (by omega)
      · rw [← supRange_empty (fun n : Fin 16384 => X V c (ix2 n j)) (512 * (n + 1)) (512 * (n + 1)) (le_refl _), e1, ← e2]
        exact supRange_append _ _ _ _ (by omega) (by omega)
    · rw [outsAt0_B V c ⟨n + 1, h⟩ h0]
      dsimp only
      rw [stepMin, stepMax, pay3_apply, pay4_apply,
        blockInf (X V c) _ (n + 1) hN j (fun k => rows_apply V c ⟨n + 1, h⟩ k j _),
        blockSup (X V c) _ (n + 1) hN j (fun k => rows_apply V c ⟨n + 1, h⟩ k j _)]
      obtain ⟨i1, i2⟩ := ih (Nat.lt_of_succ_lt h) r j
      have e1 : 8192 * ((n + 1) / 16) = 8192 * (n / 16) := by omega
      have e2 : 512 * (n + 1) + 512 = 512 * (n + 1 + 1) := by omega
      constructor
      · show min ((outsAt0 V c n _).1 (ix2 r j)) _ = _
        rw [i1, e1, ← e2]
        exact infRange_append _ _ _ _ (by omega) (by omega)
      · show max ((outsAt0 V c n _).2 (ix2 r j)) _ = _
        rw [i2, e1, ← e2]
        exact supRange_append _ _ _ _ (by omega) (by omega)

/-! ## The result arrays -/

/-- An index of the minimum result is in point `t`'s block iff each coordinate is in the block's range on its axis. -/
theorem mem_blkMin (t : Fin cfg0.N) (i : S16x4096.Idx) :
    i ∈ ((cfg0.win 1).blk t).view.set ↔ ∀ a : Fin 2, win0_1.index t a * S8x4096.size a ≤ (i a).val ∧ (i a).val < win0_1.index t a * S8x4096.size a + S8x4096.size a := by
  show i ∈ ((View.whole main_v1_0).slice (win0_1.rect t)).set ↔ _
  rw [View.set_slice_whole, Rect.mem_set_unit]
  exact Iff.rfl

/-- What a writing-back point (the last of its sixteen) writes is its block of the minimum array. -/
theorem flushedMin_eq (c : Dev nD) (t : Fin cfg0.N) (hf : (cfg0.win 1).flush t = true) :
    (dat0 V c).flushed 1 t = ((cfg0.win 1).blk t).view.read (Elt Ideal) (minArr (X V c)) := by
  have h15 : t.val % 16 = 15 := (flush0_1 t).mp hf
  have hN : t.val < 32 := lt_of_lt_of_eq t.isLt N_0
  obtain ⟨-, -, e2, e3, -, -⟩ := idx_facts t
  show (cfg0.win 1).cut (grid0.coords t) ((dat0 V c).after 1 t) = _
  rw [after0_1]
  funext y
  obtain ⟨r, j, rfl⟩ : ∃ (r : Fin 8) (j : Fin 4096), y = ix2 r j := ⟨y 0, y 1, eq_ix2 y⟩
  show (outsAt0 V c t.val t.isLt).1 (ix2 r j) = minArr (X V c) (((cfg0.win 1).blk t).view.emb (ix2 r j))
  have he : ((cfg0.win 1).blk t).view.emb (ix2 r j) = ix2 (⟨8 * (t.val / 16) + r.val, by have := r.isLt; omega⟩ : Fin 16) j := by
    funext a; apply Fin.ext
    match a with
    | ⟨0, _⟩ => show win0_1.index t (0 : Fin 2) * 8 + 1 * r.val = 8 * (t.val / 16) + r.val; omega
    | ⟨1, _⟩ => show win0_1.index t (1 : Fin 2) * 4096 + 1 * j.val = j.val; omega
  rw [he, minArr_apply, (acc_eq V c t.val t.isLt r j).1]
  have a1 : (8 * (t.val / 16) + r.val) / 8 = t.val / 16 := by have := r.isLt; omega
  have a2 : 512 * (t.val + 1) = 8192 * (t.val / 16) + 8192 := by omega
  show colInf (X V c) j (8192 * (t.val / 16)) (512 * (t.val + 1))
    = colInf (X V c) j (8192 * ((8 * (t.val / 16) + r.val) / 8)) (8192 * ((8 * (t.val / 16) + r.val) / 8) + 8192)
  rw [a1, a2]

/-- THE MINIMUM ARRAY after the pass: the half-column infima of the rows. -/
theorem finalMin (c : Dev nD) : (dat0 V c).arrAt 1 cfg0.N = minArr (X V c) :=
  (dat0 V c).arrAt_eq_of_cover 1 _ (flushedMin_eq V c) fun i => by
    have hi0 : (i 0).val < 16 := (i 0).isLt
    have hi1 : (i 1).val < 4096 := (i 1).isLt
    have hN : cfg0.N = 32 := N_0
    let t : Fin cfg0.N := ⟨16 * ((i 0).val / 8) + 15, by rw [hN]; omega⟩
    obtain ⟨-, -, e2, e3, -, -⟩ := idx_facts t
    have ht : t.val = 16 * ((i 0).val / 8) + 15 := rfl
    refine ⟨t, (flush0_1 t).mpr (by omega), ?_⟩
    rw [mem_blkMin]
    intro a
    match a with
    | ⟨0, _⟩ => show win0_1.index t (0 : Fin 2) * 8 ≤ (i 0).val ∧ (i 0).val < win0_1.index t (0 : Fin 2) * 8 + 8; omega
    | ⟨1, _⟩ => show win0_1.index t (1 : Fin 2) * 4096 ≤ (i 1).val ∧ (i 1).val < win0_1.index t (1 : Fin 2) * 4096 + 4096; omega

/-- An index of the maximum result is in point `t`'s block iff each coordinate is in the block's range on its axis. -/
theorem mem_blkMax (t : Fin cfg0.N) (i : S16x4096.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v1_1).slice (win0_2.rect t)).set ↔ _
  rw [View.set_slice_whole, Rect.mem_set_unit]
  exact Iff.rfl

/-- What a writing-back point (the last of its sixteen) writes is its block of the maximum array. -/
theorem flushedMax_eq (c : Dev nD) (t : Fin cfg0.N) (hf : (cfg0.win 2).flush t = true) :
    (dat0 V c).flushed 2 t = ((cfg0.win 2).blk t).view.read (Elt Ideal) (maxArr (X V c)) := by
  have h15 : t.val % 16 = 15 := (flush0_2 t).mp hf
  have hN : t.val < 32 := lt_of_lt_of_eq t.isLt N_0
  obtain ⟨-, -, -, -, e2, e3⟩ := idx_facts t
  show (cfg0.win 2).cut (grid0.coords t) ((dat0 V c).after 2 t) = _
  rw [after0_2]
  funext y
  obtain ⟨r, j, rfl⟩ : ∃ (r : Fin 8) (j : Fin 4096), y = ix2 r j := ⟨y 0, y 1, eq_ix2 y⟩
  show (outsAt0 V c t.val t.isLt).2 (ix2 r j) = maxArr (X V c) (((cfg0.win 2).blk t).view.emb (ix2 r j))
  have he : ((cfg0.win 2).blk t).view.emb (ix2 r j) = ix2 (⟨8 * (t.val / 16) + r.val, by have := r.isLt; omega⟩ : Fin 16) j := by
    funext a; apply Fin.ext
    match a with
    | ⟨0, _⟩ => show win0_2.index t (0 : Fin 2) * 8 + 1 * r.val = 8 * (t.val / 16) + r.val; omega
    | ⟨1, _⟩ => show win0_2.index t (1 : Fin 2) * 4096 + 1 * j.val = j.val; omega
  rw [he, maxArr_apply, (acc_eq V c t.val t.isLt r j).2]
  have a1 : (8 * (t.val / 16) + r.val) / 8 = t.val / 16 := by have := r.isLt; omega
  have a2 : 512 * (t.val + 1) = 8192 * (t.val / 16) + 8192 := by omega
  show colSup (X V c) j (8192 * (t.val / 16)) (512 * (t.val + 1))
    = colSup (X V c) j (8192 * ((8 * (t.val / 16) + r.val) / 8)) (8192 * ((8 * (t.val / 16) + r.val) / 8) + 8192)
  rw [a1, a2]

/-- THE MAXIMUM ARRAY after the pass: the half-column suprema of the rows. -/
theorem finalMax (c : Dev nD) : (dat0 V c).arrAt 2 cfg0.N = maxArr (X V c) :=
  (dat0 V c).arrAt_eq_of_cover 2 _ (flushedMax_eq V c) fun i => by
    have hi0 : (i 0).val < 16 := (i 0).isLt
    have hi1 : (i 1).val < 4096 := (i 1).isLt
    have hN : cfg0.N = 32 := N_0
    let t : Fin cfg0.N := ⟨16 * ((i 0).val / 8) + 15, by rw [hN]; omega⟩
    obtain ⟨-, -, -, -, e2, e3⟩ := idx_facts t
    have ht : t.val = 16 * ((i 0).val / 8) + 15 := rfl
    refine ⟨t, (flush0_2 t).mpr (by omega), ?_⟩
    rw [mem_blkMax]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 4096 ≤ (i 1).val ∧ (i 1).val < win0_2.index t (1 : Fin 2) * 4096 + 4096; omega

end Cert.KernelIdeal.Pass1

end
-- ==== Proof.Pass2.lean ====
/-
  The second pass over one [16384, 4096] array: what its [16384, 4096] result holds, with exact values.

  The grid has 64 points; point `t` reads rows `256·t … 256·t + 255` of the array together with the whole [1, 4096]
  scale row `S` and zero-point row `Z`, and writes the same rows of the result: every entry `x` at column `j` becomes
  `(min(255, max(0, round(x / S_j + Z_j))) - Z_j) · S_j`. The 64 blocks tile the result, so the result is that function
  of the three arrays, index by index.
-/
import proofs.«117061_j1211180777498_2_alg».proof.Proof.Gen.KernelIdeal.Frame
import proofs.«117061_j1211180777498_2_alg».proof.Proof.Spec
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- One step's stored block, read at row `r` and column `j`. -/
theorem pay_apply (v0 v2 : FVec Ideal S1x4096 .f32) (v4 : FVec Ideal S256x4096 .f32) (r : Fin 256) (j : Fin 4096) :
    k1_pay1 (F := Ideal) v0 v2 v4 (ix2 r j) = qd (v4 (ix2 r j)) (v0 (ix2 (0 : Fin 1) j)) (v2 (ix2 (0 : Fin 1) j)) := by
  have e0 : broadcastTo S256x4096 (shapeCast S1x4096 v0 shapeCasts_S1x4096_S1x4096) broadcasts_S1x4096_S256x4096 (ix2 r j)
      = v0 (ix2 (0 : Fin 1) j) := by
    rw [shapeCast_self]; exact broadcastTo_1b_ab_apply _ _ r j
  have e2 : broadcastTo S256x4096 (shapeCast S1x4096 v2 shapeCasts_S1x4096_S1x4096) broadcasts_S1x4096_S256x4096 (ix2 r j)
      = v2 (ix2 (0 : Fin 1) j) := by
    rw [shapeCast_self]; exact broadcastTo_1b_ab_apply _ _ r j
  have e4 : shapeCast S256x4096 v4 shapeCasts_S256x4096_S256x4096 (ix2 r j) = v4 (ix2 r j) := by rw [shapeCast_self]
  unfold k1_pay1 qd
  show FloatOps.mulf (FloatOps.subf (FloatOps.minimumf _ (FloatOps.maximumf _ (FloatOps.roundeven (FloatOps.addf
      (FloatOps.divf (shapeCast S256x4096 v4 shapeCasts_S256x4096_S256x4096 (ix2 r j))
        (broadcastTo S256x4096 (shapeCast S1x4096 v0 shapeCasts_S1x4096_S1x4096) broadcasts_S1x4096_S256x4096 (ix2 r j)))
      (broadcastTo S256x4096 (shapeCast S1x4096 v2 shapeCasts_S1x4096_S1x4096) broadcasts_S1x4096_S256x4096 (ix2 r j))))))
      (broadcastTo S256x4096 (shapeCast S1x4096 v2 shapeCasts_S1x4096_S1x4096) broadcasts_S1x4096_S256x4096 (ix2 r j)))
      (broadcastTo S256x4096 (shapeCast S1x4096 v0 shapeCasts_S1x4096_S1x4096) broadcasts_S1x4096_S256x4096 (ix2 r j)) = _
  rw [e0, e2, e4]
  rfl

/-- The block indices of the four windows at point `t`: the rows' and the result's block is `t`, the two rows' block is fixed. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the result function of the three arrays as the region finds them. -/
theorem flushed_eq (c : Dev nD) (t : Fin cfg1.N) :
    (dat1 V c).flushed 3 t
      = ((cfg1.win 3).blk t).view.read (Elt Ideal) (applyRows (V c main_v0) (V c main_v29) (V c main_v32)) := by
  show (cfg1.win 3).cut (grid1.coords t) ((dat1 V c).after 3 t) = _
  rw [after1_3]
  unfold out1_3
  rw [View.canon_unit_zero hz]
  simp only [View.ld_unit_zero (S := S1x4096) hz, View.ld_unit_zero (S := S256x4096) hz]
  obtain ⟨e0, e1, e2, e3, e4, e5, e6, e7⟩ := idx_facts t
  funext y
  obtain ⟨r, j, rfl⟩ : ∃ (r : Fin 256) (j : Fin 4096), y = ix2 r j := ⟨y 0, y 1, eq_ix2 y⟩
  refine (pay_apply _ _ _ r j).trans ?_
  show qd (V c main_v0 (((cfg1.win 0).blk t).view.emb (ix2 r j))) (V c main_v29 (((cfg1.win 1).blk t).view.emb (ix2 (0 : Fin 1) j)))
      (V c main_v32 (((cfg1.win 2).blk t).view.emb (ix2 (0 : Fin 1) j)))
    = applyRows (V c main_v0) (V c main_v29) (V c main_v32) (((cfg1.win 3).blk t).view.emb (ix2 r j))
  have h0 : ((cfg1.win 0).blk t).view.emb (ix2 r j) = ((cfg1.win 3).blk t).view.emb (ix2 r j) := by
    funext a; apply Fin.ext
    match a with
    | ⟨0, _⟩ => show win1_0.index t (0 : Fin 2) * 256 + 1 * r.val = win1_3.index t (0 : Fin 2) * 256 + 1 * r.val; omega
    | ⟨1, _⟩ => show win1_0.index t (1 : Fin 2) * 4096 + 1 * j.val = win1_3.index t (1 : Fin 2) * 4096 + 1 * j.val; omega
  have h1 : ((cfg1.win 1).blk t).view.emb (ix2 (0 : Fin 1) j)
      = ix2 (0 : Fin 1) ((((cfg1.win 3).blk t).view.emb (ix2 r j)) 1) := by
    funext a; apply Fin.ext
    match a with
    | ⟨0, _⟩ => show win1_1.index t (0 : Fin 2) * 1 + 1 * 0 = 0; omega
    | ⟨1, _⟩ => show win1_1.index t (1 : Fin 2) * 4096 + 1 * j.val = win1_3.index t (1 : Fin 2) * 4096 + 1 * j.val; omega
  have h2 : ((cfg1.win 2).blk t).view.emb (ix2 (0 : Fin 1) j)
      = ix2 (0 : Fin 1) ((((cfg1.win 3).blk t).view.emb (ix2 r j)) 1) := by
    funext a; apply Fin.ext
    match a with
    | ⟨0, _⟩ => show win1_2.index t (0 : Fin 2) * 1 + 1 * 0 = 0; omega
    | ⟨1, _⟩ => show win1_2.index t (1 : Fin 2) * 4096 + 1 * j.val = win1_3.index t (1 : Fin 2) * 4096 + 1 * j.val; omega
  rw [h0, h1, h2]
  rfl

/-- An index of the result is in point `t`'s block iff each coordinate is in the block's range on its axis. -/
theorem mem_blk (t : Fin cfg1.N) (i : S16384x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v33).slice (win1_3.rect t)).set ↔ _
  rw [View.set_slice_whole, Rect.mem_set_unit]
  exact Iff.rfl

/-- THE RESULT ARRAY after the pass. -/
theorem final (c : Dev nD) :
    (dat1 V c).arrAt 3 cfg1.N = applyRows (V c main_v0) (V c main_v29) (V c main_v32) :=
  (dat1 V c).arrAt_eq_of_cover 3 _ (fun t _ => flushed_eq V c t) fun i => by
    have hi0 : (i 0).val < 16384 := (i 0).isLt
    have hi1 : (i 1).val < 4096 := (i 1).isLt
    have hN : cfg1.N = 64 := N_1
    let t : Fin cfg1.N := ⟨(i 0).val / 256, by rw [hN]; omega⟩
    obtain ⟨-, -, -, -, -, -, e6, e7⟩ := idx_facts t
    have ht : t.val = (i 0).val / 256 := rfl
    refine ⟨t, flush1_3 t, ?_⟩
    rw [mem_blk]
    intro a
    match a with
    | ⟨0, _⟩ => show win1_3.index t (0 : Fin 2) * 256 ≤ (i 0).val ∧ (i 0).val < win1_3.index t (0 : Fin 2) * 256 + 256; omega
    | ⟨1, _⟩ => show win1_3.index t (1 : Fin 2) * 4096 ≤ (i 1).val ∧ (i 1).val < win1_3.index t (1 : Fin 2) * 4096 + 4096; omega

end Cert.KernelIdeal.Pass2

end
-- ==== Proof.TileV.lean ====
/-
  One grid step of the first pass (second array), read at an index, with exact values.

  The step takes a [512, 4096] block `x` of rows and the running [8, 4096] accumulator `xo` (eight identical rows).
  Its new minimum accumulator holds, at row `r` and column `j`, the minimum of the old entry and the infimum of
  column `j` over the block's 512 rows; the maximum accumulator the maximum of the old entry and the supremum.
  The reset values are the constant arrays `+∞` and `-∞`.
-/
import proofs.«117061_j1211180777498_2_alg».proof.Proof.Gen.KernelIdeal.Skeleton
import proofs.«117061_j1211180777498_2_alg».proof.Proof.LibMinReduce
import proofs.«117061_j1211180777498_2_alg».proof.Proof.LibMaxReduce
import Idealize.ShloMosaic.Lib.ValueIdx
import Idealize.ShloMosaic.Lib.ValueLayout
import Idealize.ShloMosaic.Lib.Pipeline.Value

noncomputable section

namespace Cert.KernelIdeal.TileV

open Idealize.ShloMosaic Idealize.ShloMosaic.ValueIdx Cert.KernelIdeal Cert.KernelIdeal.Gen

/-- Inserting row `k` above column `j`: the index `(k, j)` of the block. -/
theorem lift_rows (h : S512x4096.Reduces [0] S4096) (j : Fin 4096) (k : Fin 512) :
    h.lift (ix1 j) k = ix2 k j := by
  funext c
  apply Fin.ext
  match c with
  | ⟨0, _⟩ => rfl
  | ⟨1, _⟩ => rfl

/-- The reset value of the minimum accumulator is `+∞` everywhere. -/
theorem pay1_apply (i : S8x4096.Idx) : k2_pay1 (F := Ideal) i = (⊤ : EReal) := by
  unfold k2_pay1
  exact Cert.LibMinReduce.ofBits_inf

/-- The reset value of the maximum accumulator is `-∞` everywhere. -/
theorem pay2_apply (i : S8x4096.Idx) : k2_pay2 (F := Ideal) i = (⊥ : EReal) := by
  unfold k2_pay2
  exact Cert.LibMaxReduce.ofBits_neg_inf

/-- The new minimum accumulator: the old entry against the block's column infimum. -/
theorem pay3_apply (x : Vec Ideal S512x4096 .f32) (xo : Vec Ideal S8x4096 .f32) (r : Fin 8) (j : Fin 4096) :
    k2_pay3 (F := Ideal) x xo (ix2 r j) = min (xo (ix2 r j)) (⨅ k : Fin 512, x (ix2 k j)) := by
  unfold k2_pay3
  refine congrArg₂ min ?_ ?_
  · exact congrFun (shapeCast_self xo _) (ix2 r j)
  · refine (broadcastTo_1b_ab_apply _ _ r j).trans ?_
    rw [shapeCast_self]
    refine (shapeCast_a_1a_apply _ _ 0 j).trans ?_
    refine (Cert.LibMinReduce.multiReduction_minimumf_inf _ _ _ _ (ix1 j)).trans ?_
    refine iInf_congr fun k => ?_
    rw [shapeCast_self]
    exact congrArg x (lift_rows _ j k)

/-- The new maximum accumulator: the old entry against the block's column supremum. -/
theorem pay4_apply (x : Vec Ideal S512x4096 .f32) (xo : Vec Ideal S8x4096 .f32) (r : Fin 8) (j : Fin 4096) :
    k2_pay4 (F := Ideal) x xo (ix2 r j) = max (xo (ix2 r j)) (⨆ k : Fin 512, x (ix2 k j)) := by
  unfold k2_pay4
  refine congrArg₂ max ?_ ?_
  · exact congrFun (shapeCast_self xo _) (ix2 r j)
  · refine (broadcastTo_1b_ab_apply _ _ r j).trans ?_
    rw [shapeCast_self]
    refine (shapeCast_a_1a_apply _ _ 0 j).trans ?_
    refine (Cert.LibMaxReduce.multiReduction_maximumf_sup _ _ _ _ (ix1 j)).trans ?_
    refine iSup_congr fun k => ?_
    rw [shapeCast_self]
    exact congrArg x (lift_rows _ j k)

end Cert.KernelIdeal.TileV

end
-- ==== Proof.Pass1V.lean ====
/-
  The first pass (the program's second use of it) over one [16384, 4096] array `X`: what its two [16, 4096] result arrays hold, with exact values.

  The grid has 32 points; point `t` reads rows `512·t … 512·t + 511` of `X`, and the points `16·p … 16·p + 15` share
  one [8, 4096] accumulator block per result, reset at the first of them and written back after the last, into rows
  `8·p … 8·p + 7` of the result. After point `n` the minimum accumulator holds, in every row, the column infimum over
  the rows `8192·(n / 16) ≤ k < 512·(n + 1)` of `X` (induction on the point: a reset starts from `+∞`, every other
  point extends the range by its 512 rows), and the maximum accumulator the column supremum over the same rows. So
  result row `q` ends holding the column infimum (supremum) over the rows `8192·(q / 8) ≤ k < 8192·(q / 8) + 8192`.
-/
import proofs.«117061_j1211180777498_2_alg».proof.Proof.Gen.KernelIdeal.Frame
import proofs.«117061_j1211180777498_2_alg».proof.Proof.TileV
import proofs.«117061_j1211180777498_2_alg».proof.Proof.GroupExtrema
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass1V

open Cert.KernelIdeal Cert.KernelIdeal.Gen Cert.Spec Cert.GroupExtrema Cert.LibExtremaRange Cert.KernelIdeal.TileV

variable (V : (c : Dev nD) → (b : Ref sig .tc) → Buf (Elt Ideal) ((c : Thread nD τ).loc b))

theorem hz : (![0, 0] : Fin 2 → Nat) = fun _ => 0 := funext fun a => by fin_cases a <;> rfl

/-! ## What one step leaves in the accumulators -/

/-- A step that does not reset leaves the running minimum of the old accumulator and the block. -/
theorem stepMin (c : Dev nD) (i : grid2.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : ¬cond2_0 i) (x : Vec Ideal S512x4096 .f32) (xo1 xo2 : Vec Ideal S8x4096 .f32) :
    out2_B_1 c i a2 h2 a3 h3 a4 h4 hc x xo1 xo2 = k2_pay3 x xo1 := by
  unfold out2_B_1
  rw [View.read_writes_eq_canon _ _ _ (cover2_B_1 c i a2 h2 a3 h3 a4 h4 hc x xo1 xo2)]
  unfold kernelRun2_B
  dsimp only
  rw [View.canon_unit_zero hz]
  simp only [View.readAt_eq_ld, h2.read_unread, h3.read_unread, View.ld_unit_zero (S := S512x4096) hz,
    View.ld_unit_zero (S := S8x4096) hz]

/-- A step that does not reset leaves the running maximum of the old accumulator and the block. -/
theorem stepMax (c : Dev nD) (i : grid2.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : ¬cond2_0 i) (x : Vec Ideal S512x4096 .f32) (xo1 xo2 : Vec Ideal S8x4096 .f32) :
    out2_B_2 c i a2 h2 a3 h3 a4 h4 hc x xo1 xo2 = k2_pay4 x xo2 := by
  unfold out2_B_2
  rw [View.read_writes_eq_canon _ _ _ (cover2_B_2 c i a2 h2 a3 h3 a4 h4 hc x xo1 xo2)]
  unfold kernelRun2_B
  dsimp only
  rw [View.canon_unit_zero hz]
  simp only [View.readAt_eq_ld, h2.read_unread, h4.read_unread, View.ld_unit_zero (S := S512x4096) hz,
    View.ld_unit_zero (S := S8x4096) hz]

/-- A resetting step leaves the minimum of the constant `+∞` array and the block. -/
theorem resetMin (c : Dev nD) (i : grid2.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : cond2_0 i) (x : Vec Ideal S512x4096 .f32) :
    out2_A_1 c i a2 h2 a3 h3 a4 h4 hc x = k2_pay3 x (k2_pay1 (F := Ideal)) := by
  unfold out2_A_1
  rw [View.read_writes_eq_canon _ _ _ (cover2_A_1 c i a2 h2 a3 h3 a4 h4 hc x)]
  unfold kernelRun2_A
  dsimp only
  sl_unfold_words
  rw [View.canon_cons_unit_zero (S := S8x4096) hz, View.readCov_unit_zero (S := S8x4096) _ hz]
  simp only [View.readAt_eq_ld, h2.read_unread, View.ld_unit_zero (S := S512x4096) hz]

/-- A resetting step leaves the maximum of the constant `-∞` array and the block. -/
theorem resetMax (c : Dev nD) (i : grid2.Coords) (a2 : Memref sig .tc .vmem S512x4096 .f32) (h2 : a2.IsWhole)
    (a3 : Memref sig .tc .vmem S8x4096 .f32) (h3 : a3.IsWhole) (a4 : Memref sig .tc .vmem S8x4096 .f32) (h4 : a4.IsWhole)
    (hc : cond2_0 i) (x : Vec Ideal S512x4096 .f32) :
    out2_A_2 c i a2 h2 a3 h3 a4 h4 hc x = k2_pay4 x (k2_pay2 (F := Ideal)) := by
  unfold out2_A_2
  rw [View.read_writes_eq_canon _ _ _ (cover2_A_2 c i a2 h2 a3 h3 a4 h4 hc x)]
  unfold kernelRun2_A
  dsimp only
  sl_unfold_words
  rw [View.canon_cons_unit_zero (S := S8x4096) hz, View.readCov_unit_zero (S := S8x4096) _ hz]
  simp only [View.readAt_eq_ld, h2.read_unread, View.ld_unit_zero (S := S512x4096) hz]

/-! ## The blocks -/

/-- The block indices of the three windows at point `t`: the rows' block is `t`, both results' block is `t / 16`. -/
theorem idx_facts : ∀ t : Fin cfg2.N, win2_0.index t (0 : Fin 2) = t.val ∧ win2_0.index t (1 : Fin 2) = 0
    ∧ win2_1.index t (0 : Fin 2) = t.val / 16 ∧ win2_1.index t (1 : Fin 2) = 0
    ∧ win2_2.index t (0 : Fin 2) = t.val / 16 ∧ win2_2.index t (1 : Fin 2) = 0 :=
  (by decide +kernel : ∀ t : Fin grid2.N, _)

/-- The array of rows as the region finds it. -/
abbrev X (c : Dev nD) : Mat := V c main_v35

/-- Point `t`'s block of rows reads the array at row `512·t + k`. -/
theorem rows_apply (c : Dev nD) (t : Fin cfg2.N) (k : Fin 512) (j : Fin 4096) (hk : 512 * t.val + k.val < 16384) :
    (iblk2 V c 0 t : Vec Ideal S512x4096 .f32) (ix2 k j) = X V c (ix2 ⟨512 * t.val + k.val, hk⟩ j) := by
  obtain ⟨e0, e1, -⟩ := idx_facts t
  unfold iblk2
  rw [View.read_apply]
  show V c main_v35 _ = V c main_v35 _
  refine congrArg (V c main_v35) ?_
  funext a
  apply Fin.ext
  match a with
  | ⟨0, _⟩ => show win2_0.index t (0 : Fin 2) * 512 + 1 * k.val = 512 * t.val + k.val; omega
  | ⟨1, _⟩ => show win2_0.index t (1 : Fin 2) * 4096 + 1 * j.val = j.val; omega

/-- The column infimum of a block of 512 rows that reads `Y` from row `512·t` on is the column infimum of `Y` over those rows. -/
theorem blockInf (Y : Mat) (x : Vec Ideal S512x4096 .f32) (t : ℕ) (ht : t < 32) (j : Fin 4096)
    (hx : ∀ k : Fin 512, x (ix2 k j) = Y (ix2 ⟨512 * t + k.val, by have := k.isLt; omega⟩ j)) :
    (⨅ k : Fin 512, x (ix2 k j)) = colInf Y j (512 * t) (512 * t + 512) := by
  unfold colInf
  rw [infRange_block _ (512 * t) 512 (by omega)]
  exact iInf_congr hx

/-- The column supremum of a block of 512 rows that reads `Y` from row `512·t` on is the column supremum of `Y` over those rows. -/
theorem blockSup (Y : Mat) (x : Vec Ideal S512x4096 .f32) (t : ℕ) (ht : t < 32) (j : Fin 4096)
    (hx : ∀ k : Fin 512, x (ix2 k j) = Y (ix2 ⟨512 * t + k.val, by have := k.isLt; omega⟩ j)) :
    (⨆ k : Fin 512, x (ix2 k j)) = colSup Y j (512 * t) (512 * t + 512) := by
  unfold colSup
  rw [supRange_block _ (512 * t) 512 (by omega)]
  exact iSup_congr hx

/-! ## The accumulators after each point -/

/-- After point `n` both accumulators hold, in every row, the column extrema over the rows read since the last reset. -/
theorem acc_eq (c : Dev nD) : ∀ (n : ℕ) (h : n < cfg2.N) (r : Fin 8) (j : Fin 4096),
    (outsAt2 V c n h).1 (ix2 r j) = colInf (X V c) j (8192 * (n / 16)) (512 * (n + 1))
    ∧ (outsAt2 V c n h).2 (ix2 r j) = colSup (X V c) j (8192 * (n / 16)) (512 * (n + 1)) := by
  intro n
  induction n with
  | zero =>
    intro h r j
    rw [outsAt2_A V c ⟨0, h⟩ rfl]
    dsimp only
    rw [resetMin, resetMax, pay3_apply, pay4_apply, pay1_apply, pay2_apply,
      blockInf (X V c) _ 0 (by omega) j (fun k => rows_apply V c ⟨0, h⟩ k j _),
      blockSup (X V c) _ 0 (by omega) j (fun k => rows_apply V c ⟨0, h⟩ k j _)]
    unfold colInf colSup
    constructor
    · rw [← infRange_empty (fun n : Fin 16384 => X V c (ix2 n j)) 0 0 (le_refl _)]
      exact infRange_append _ 0 0 512 (by omega) (by omega)
    · rw [← supRange_empty (fun n : Fin 16384 => X V c (ix2 n j)) 0 0 (le_refl _)]
      exact supRange_append _ 0 0 512 (by omega) (by omega)
  | succ n ih =>
    intro h r j
    have hN : n + 1 < 32 := lt_of_lt_of_eq h N_2
    by_cases h0 : (n + 1) % 16 = 0
    · rw [outsAt2_A V c ⟨n + 1, h⟩ h0]
      dsimp only
      rw [resetMin, resetMax, pay3_apply, pay4_apply, pay1_apply, pay2_apply,
        blockInf (X V c) _ (n + 1) hN j (fun k => rows_apply V c ⟨n + 1, h⟩ k j _),
        blockSup (X V c) _ (n + 1) hN j (fun k => rows_apply V c ⟨n + 1, h⟩ k j _)]
      unfold colInf colSup
      have e1 : 8192 * ((n + 1) / 16) = 512 * (n + 1) := by omega
      have e2 : 512 * (n + 1) + 512 = 512 * (n + 1 + 1) := by omega
      constructor
      · rw [← infRange_empty (fun n : Fin 16384 => X V c (ix2 n j)) (512 * (n + 1)) (512 * (n + 1)) (le_refl _), e1, ← e2]
        exact infRange_append _ _ _ _ (by omega) (by omega)
      · rw [← supRange_empty (fun n : Fin 16384 => X V c (ix2 n j)) (512 * (n + 1)) (512 * (n + 1)) (le_refl _), e1, ← e2]
        exact supRange_append _ _ _ _ (by omega) (by omega)
    · rw [outsAt2_B V c ⟨n + 1, h⟩ h0]
      dsimp only
      rw [stepMin, stepMax, pay3_apply, pay4_apply,
        blockInf (X V c) _ (n + 1) hN j (fun k => rows_apply V c ⟨n + 1, h⟩ k j _),
        blockSup (X V c) _ (n + 1) hN j (fun k => rows_apply V c ⟨n + 1, h⟩ k j _)]
      obtain ⟨i1, i2⟩ := ih (Nat.lt_of_succ_lt h) r j
      have e1 : 8192 * ((n + 1) / 16) = 8192 * (n / 16) := by omega
      have e2 : 512 * (n + 1) + 512 = 512 * (n + 1 + 1) := by omega
      constructor
      · show min ((outsAt2 V c n _).1 (ix2 r j)) _ = _
        rw [i1, e1, ← e2]
        exact infRange_append _ _ _ _ (by omega) (by omega)
      · show max ((outsAt2 V c n _).2 (ix2 r j)) _ = _
        rw [i2, e1, ← e2]
        exact supRange_append _ _ _ _ (by omega) (by omega)

/-! ## The result arrays -/

/-- An index of the minimum result is in point `t`'s block iff each coordinate is in the block's range on its axis. -/
theorem mem_blkMin (t : Fin cfg2.N) (i : S16x4096.Idx) :
    i ∈ ((cfg2.win 1).blk t).view.set ↔ ∀ a : Fin 2, win2_1.index t a * S8x4096.size a ≤ (i a).val ∧ (i a).val < win2_1.index t a * S8x4096.size a + S8x4096.size a := by
  show i ∈ ((View.whole main_v36_0).slice (win2_1.rect t)).set ↔ _
  rw [View.set_slice_whole, Rect.mem_set_unit]
  exact Iff.rfl

/-- What a writing-back point (the last of its sixteen) writes is its block of the minimum array. -/
theorem flushedMin_eq (c : Dev nD) (t : Fin cfg2.N) (hf : (cfg2.win 1).flush t = true) :
    (dat2 V c).flushed 1 t = ((cfg2.win 1).blk t).view.read (Elt Ideal) (minArr (X V c)) := by
  have h15 : t.val % 16 = 15 := (flush2_1 t).mp hf
  have hN : t.val < 32 := lt_of_lt_of_eq t.isLt N_2
  obtain ⟨-, -, e2, e3, -, -⟩ := idx_facts t
  show (cfg2.win 1).cut (grid2.coords t) ((dat2 V c).after 1 t) = _
  rw [after2_1]
  funext y
  obtain ⟨r, j, rfl⟩ : ∃ (r : Fin 8) (j : Fin 4096), y = ix2 r j := ⟨y 0, y 1, eq_ix2 y⟩
  show (outsAt2 V c t.val t.isLt).1 (ix2 r j) = minArr (X V c) (((cfg2.win 1).blk t).view.emb (ix2 r j))
  have he : ((cfg2.win 1).blk t).view.emb (ix2 r j) = ix2 (⟨8 * (t.val / 16) + r.val, by have := r.isLt; omega⟩ : Fin 16) j := by
    funext a; apply Fin.ext
    match a with
    | ⟨0, _⟩ => show win2_1.index t (0 : Fin 2) * 8 + 1 * r.val = 8 * (t.val / 16) + r.val; omega
    | ⟨1, _⟩ => show win2_1.index t (1 : Fin 2) * 4096 + 1 * j.val = j.val; omega
  rw [he, minArr_apply, (acc_eq V c t.val t.isLt r j).1]
  have a1 : (8 * (t.val / 16) + r.val) / 8 = t.val / 16 := by have := r.isLt; omega
  have a2 : 512 * (t.val + 1) = 8192 * (t.val / 16) + 8192 := by omega
  show colInf (X V c) j (8192 * (t.val / 16)) (512 * (t.val + 1))
    = colInf (X V c) j (8192 * ((8 * (t.val / 16) + r.val) / 8)) (8192 * ((8 * (t.val / 16) + r.val) / 8) + 8192)
  rw [a1, a2]

/-- THE MINIMUM ARRAY after the pass: the half-column infima of the rows. -/
theorem finalMin (c : Dev nD) : (dat2 V c).arrAt 1 cfg2.N = minArr (X V c) :=
  (dat2 V c).arrAt_eq_of_cover 1 _ (flushedMin_eq V c) fun i => by
    have hi0 : (i 0).val < 16 := (i 0).isLt
    have hi1 : (i 1).val < 4096 := (i 1).isLt
    have hN : cfg2.N = 32 := N_2
    let t : Fin cfg2.N := ⟨16 * ((i 0).val / 8) + 15, by rw [hN]; omega⟩
    obtain ⟨-, -, e2, e3, -, -⟩ := idx_facts t
    have ht : t.val = 16 * ((i 0).val / 8) + 15 := rfl
    refine ⟨t, (flush2_1 t).mpr (by omega), ?_⟩
    rw [mem_blkMin]
    intro a
    match a with
    | ⟨0, _⟩ => show win2_1.index t (0 : Fin 2) * 8 ≤ (i 0).val ∧ (i 0).val < win2_1.index t (0 : Fin 2) * 8 + 8; omega
    | ⟨1, _⟩ => show win2_1.index t (1 : Fin 2) * 4096 ≤ (i 1).val ∧ (i 1).val < win2_1.index t (1 : Fin 2) * 4096 + 4096; omega

/-- An index of the maximum result is in point `t`'s block iff each coordinate is in the block's range on its axis. -/
theorem mem_blkMax (t : Fin cfg2.N) (i : S16x4096.Idx) :
    i ∈ ((cfg2.win 2).blk t).view.set ↔ ∀ a : Fin 2, win2_2.index t a * S8x4096.size a ≤ (i a).val ∧ (i a).val < win2_2.index t a * S8x4096.size a + S8x4096.size a := by
  show i ∈ ((View.whole main_v36_1).slice (win2_2.rect t)).set ↔ _
  rw [View.set_slice_whole, Rect.mem_set_unit]
  exact Iff.rfl

/-- What a writing-back point (the last of its sixteen) writes is its block of the maximum array. -/
theorem flushedMax_eq (c : Dev nD) (t : Fin cfg2.N) (hf : (cfg2.win 2).flush t = true) :
    (dat2 V c).flushed 2 t = ((cfg2.win 2).blk t).view.read (Elt Ideal) (maxArr (X V c)) := by
  have h15 : t.val % 16 = 15 := (flush2_2 t).mp hf
  have hN : t.val < 32 := lt_of_lt_of_eq t.isLt N_2
  obtain ⟨-, -, -, -, e2, e3⟩ := idx_facts t
  show (cfg2.win 2).cut (grid2.coords t) ((dat2 V c).after 2 t) = _
  rw [after2_2]
  funext y
  obtain ⟨r, j, rfl⟩ : ∃ (r : Fin 8) (j : Fin 4096), y = ix2 r j := ⟨y 0, y 1, eq_ix2 y⟩
  show (outsAt2 V c t.val t.isLt).2 (ix2 r j) = maxArr (X V c) (((cfg2.win 2).blk t).view.emb (ix2 r j))
  have he : ((cfg2.win 2).blk t).view.emb (ix2 r j) = ix2 (⟨8 * (t.val / 16) + r.val, by have := r.isLt; omega⟩ : Fin 16) j := by
    funext a; apply Fin.ext
    match a with
    | ⟨0, _⟩ => show win2_2.index t (0 : Fin 2) * 8 + 1 * r.val = 8 * (t.val / 16) + r.val; omega
    | ⟨1, _⟩ => show win2_2.index t (1 : Fin 2) * 4096 + 1 * j.val = j.val; omega
  rw [he, maxArr_apply, (acc_eq V c t.val t.isLt r j).2]
  have a1 : (8 * (t.val / 16) + r.val) / 8 = t.val / 16 := by have := r.isLt; omega
  have a2 : 512 * (t.val + 1) = 8192 * (t.val / 16) + 8192 := by omega
  show colSup (X V c) j (8192 * (t.val / 16)) (512 * (t.val + 1))
    = colSup (X V c) j (8192 * ((8 * (t.val / 16) + r.val) / 8)) (8192 * ((8 * (t.val / 16) + r.val) / 8) + 8192)
  rw [a1, a2]

/-- THE MAXIMUM ARRAY after the pass: the half-column suprema of the rows. -/
theorem finalMax (c : Dev nD) : (dat2 V c).arrAt 2 cfg2.N = maxArr (X V c) :=
  (dat2 V c).arrAt_eq_of_cover 2 _ (flushedMax_eq V c) fun i => by
    have hi0 : (i 0).val < 16 := (i 0).isLt
    have hi1 : (i 1).val < 4096 := (i 1).isLt
    have hN : cfg2.N = 32 := N_2
    let t : Fin cfg2.N := ⟨16 * ((i 0).val / 8) + 15, by rw [hN]; omega⟩
    obtain ⟨-, -, -, -, e2, e3⟩ := idx_facts t
    have ht : t.val = 16 * ((i 0).val / 8) + 15 := rfl
    refine ⟨t, (flush2_2 t).mpr (by omega), ?_⟩
    rw [mem_blkMax]
    intro a
    match a with
    | ⟨0, _⟩ => show win2_2.index t (0 : Fin 2) * 8 ≤ (i 0).val ∧ (i 0).val < win2_2.index t (0 : Fin 2) * 8 + 8; omega
    | ⟨1, _⟩ => show win2_2.index t (1 : Fin 2) * 4096 ≤ (i 1).val ∧ (i 1).val < win2_2.index t (1 : Fin 2) * 4096 + 4096; omega

end Cert.KernelIdeal.Pass1V

end
-- ==== Proof.Pass2V.lean ====
/-
  The second pass (the program's second use of it) over one [16384, 4096] array: what its [16384, 4096] result holds, with exact values.

  The grid has 64 points; point `t` reads rows `256·t … 256·t + 255` of the array together with the whole [1, 4096]
  scale row `S` and zero-point row `Z`, and writes the same rows of the result: every entry `x` at column `j` becomes
  `(min(255, max(0, round(x / S_j + Z_j))) - Z_j) · S_j`. The 64 blocks tile the result, so the result is that function
  of the three arrays, index by index.
-/
import proofs.«117061_j1211180777498_2_alg».proof.Proof.Gen.KernelIdeal.Frame
import proofs.«117061_j1211180777498_2_alg».proof.Proof.Spec
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2V

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- One step's stored block, read at row `r` and column `j`. -/
theorem pay_apply (v0 v2 : FVec Ideal S1x4096 .f32) (v4 : FVec Ideal S256x4096 .f32) (r : Fin 256) (j : Fin 4096) :
    k3_pay1 (F := Ideal) v0 v2 v4 (ix2 r j) = qd (v4 (ix2 r j)) (v0 (ix2 (0 : Fin 1) j)) (v2 (ix2 (0 : Fin 1) j)) := by
  have e0 : broadcastTo S256x4096 (shapeCast S1x4096 v0 shapeCasts_S1x4096_S1x4096) broadcasts_S1x4096_S256x4096 (ix2 r j)
      = v0 (ix2 (0 : Fin 1) j) := by
    rw [shapeCast_self]; exact broadcastTo_1b_ab_apply _ _ r j
  have e2 : broadcastTo S256x4096 (shapeCast S1x4096 v2 shapeCasts_S1x4096_S1x4096) broadcasts_S1x4096_S256x4096 (ix2 r j)
      = v2 (ix2 (0 : Fin 1) j) := by
    rw [shapeCast_self]; exact broadcastTo_1b_ab_apply _ _ r j
  have e4 : shapeCast S256x4096 v4 shapeCasts_S256x4096_S256x4096 (ix2 r j) = v4 (ix2 r j) := by rw [shapeCast_self]
  unfold k3_pay1 qd
  show FloatOps.mulf (FloatOps.subf (FloatOps.minimumf _ (FloatOps.maximumf _ (FloatOps.roundeven (FloatOps.addf
      (FloatOps.divf (shapeCast S256x4096 v4 shapeCasts_S256x4096_S256x4096 (ix2 r j))
        (broadcastTo S256x4096 (shapeCast S1x4096 v0 shapeCasts_S1x4096_S1x4096) broadcasts_S1x4096_S256x4096 (ix2 r j)))
      (broadcastTo S256x4096 (shapeCast S1x4096 v2 shapeCasts_S1x4096_S1x4096) broadcasts_S1x4096_S256x4096 (ix2 r j))))))
      (broadcastTo S256x4096 (shapeCast S1x4096 v2 shapeCasts_S1x4096_S1x4096) broadcasts_S1x4096_S256x4096 (ix2 r j)))
      (broadcastTo S256x4096 (shapeCast S1x4096 v0 shapeCasts_S1x4096_S1x4096) broadcasts_S1x4096_S256x4096 (ix2 r j)) = _
  rw [e0, e2, e4]
  rfl

/-- The block indices of the four windows at point `t`: the rows' and the result's block is `t`, the two rows' block is fixed. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the result function of the three arrays as the region finds them. -/
theorem flushed_eq (c : Dev nD) (t : Fin cfg3.N) :
    (dat3 V c).flushed 3 t
      = ((cfg3.win 3).blk t).view.read (Elt Ideal) (applyRows (V c main_v35) (V c main_v64) (V c main_v67)) := by
  show (cfg3.win 3).cut (grid3.coords t) ((dat3 V c).after 3 t) = _
  rw [after3_3]
  unfold out3_3
  rw [View.canon_unit_zero hz]
  simp only [View.ld_unit_zero (S := S1x4096) hz, View.ld_unit_zero (S := S256x4096) hz]
  obtain ⟨e0, e1, e2, e3, e4, e5, e6, e7⟩ := idx_facts t
  funext y
  obtain ⟨r, j, rfl⟩ : ∃ (r : Fin 256) (j : Fin 4096), y = ix2 r j := ⟨y 0, y 1, eq_ix2 y⟩
  refine (pay_apply _ _ _ r j).trans ?_
  show qd (V c main_v35 (((cfg3.win 0).blk t).view.emb (ix2 r j))) (V c main_v64 (((cfg3.win 1).blk t).view.emb (ix2 (0 : Fin 1) j)))
      (V c main_v67 (((cfg3.win 2).blk t).view.emb (ix2 (0 : Fin 1) j)))
    = applyRows (V c main_v35) (V c main_v64) (V c main_v67) (((cfg3.win 3).blk t).view.emb (ix2 r j))
  have h0 : ((cfg3.win 0).blk t).view.emb (ix2 r j) = ((cfg3.win 3).blk t).view.emb (ix2 r j) := by
    funext a; apply Fin.ext
    match a with
    | ⟨0, _⟩ => show win3_0.index t (0 : Fin 2) * 256 + 1 * r.val = win3_3.index t (0 : Fin 2) * 256 + 1 * r.val; omega
    | ⟨1, _⟩ => show win3_0.index t (1 : Fin 2) * 4096 + 1 * j.val = win3_3.index t (1 : Fin 2) * 4096 + 1 * j.val; omega
  have h1 : ((cfg3.win 1).blk t).view.emb (ix2 (0 : Fin 1) j)
      = ix2 (0 : Fin 1) ((((cfg3.win 3).blk t).view.emb (ix2 r j)) 1) := by
    funext a; apply Fin.ext
    match a with
    | ⟨0, _⟩ => show win3_1.index t (0 : Fin 2) * 1 + 1 * 0 = 0; omega
    | ⟨1, _⟩ => show win3_1.index t (1 : Fin 2) * 4096 + 1 * j.val = win3_3.index t (1 : Fin 2) * 4096 + 1 * j.val; omega
  have h2 : ((cfg3.win 2).blk t).view.emb (ix2 (0 : Fin 1) j)
      = ix2 (0 : Fin 1) ((((cfg3.win 3).blk t).view.emb (ix2 r j)) 1) := by
    funext a; apply Fin.ext
    match a with
    | ⟨0, _⟩ => show win3_2.index t (0 : Fin 2) * 1 + 1 * 0 = 0; omega
    | ⟨1, _⟩ => show win3_2.index t (1 : Fin 2) * 4096 + 1 * j.val = win3_3.index t (1 : Fin 2) * 4096 + 1 * j.val; omega
  rw [h0, h1, h2]
  rfl

/-- An index of the result is in point `t`'s block iff each coordinate is in the block's range on its axis. -/
theorem mem_blk (t : Fin cfg3.N) (i : S16384x4096.Idx) :
    i ∈ ((cfg3.win 3).blk t).view.set ↔ ∀ a : Fin 2, win3_3.index t a * S256x4096.size a ≤ (i a).val ∧ (i a).val < win3_3.index t a * S256x4096.size a + S256x4096.size a := by
  show i ∈ ((View.whole main_v68).slice (win3_3.rect t)).set ↔ _
  rw [View.set_slice_whole, Rect.mem_set_unit]
  exact Iff.rfl

/-- THE RESULT ARRAY after the pass. -/
theorem final (c : Dev nD) :
    (dat3 V c).arrAt 3 cfg3.N = applyRows (V c main_v35) (V c main_v64) (V c main_v67) :=
  (dat3 V c).arrAt_eq_of_cover 3 _ (fun t _ => flushed_eq V c t) fun i => by
    have hi0 : (i 0).val < 16384 := (i 0).isLt
    have hi1 : (i 1).val < 4096 := (i 1).isLt
    have hN : cfg3.N = 64 := N_3
    let t : Fin cfg3.N := ⟨(i 0).val / 256, by rw [hN]; omega⟩
    obtain ⟨-, -, -, -, -, -, e6, e7⟩ := idx_facts t
    have ht : t.val = (i 0).val / 256 := rfl
    refine ⟨t, flush3_3 t, ?_⟩
    rw [mem_blk]
    intro a
    match a with
    | ⟨0, _⟩ => show win3_3.index t (0 : Fin 2) * 256 ≤ (i 0).val ∧ (i 0).val < win3_3.index t (0 : Fin 2) * 256 + 256; omega
    | ⟨1, _⟩ => show win3_3.index t (1 : Fin 2) * 4096 ≤ (i 1).val ∧ (i 1).val < win3_3.index t (1 : Fin 2) * 4096 + 4096; omega

end Cert.KernelIdeal.Pass2V

end
-- ==== Proof.Glue.lean ====
/-
  The host operations between the two passes, read at an index with exact values.

  From the two [16, 4096] result arrays `A` (minima) and `B` (maxima) of the first pass: rows 0 and 8 are combined
  column by column, each group's 128 columns are reduced, the scale and zero point of each of the 32 groups are
  computed, and each is repeated over its group's 128 columns into a [1, 4096] row. Read at column `j`, the two rows
  hold the scale and the zero point of `j`'s group, as functions of the group's combined extrema.
-/
import proofs.«117061_j1211180777498_2_alg».proof.Proof.Gen.KernelIdeal
import proofs.«117061_j1211180777498_2_alg».proof.Proof.GroupExtrema
import proofs.«117061_j1211180777498_2_alg».proof.Proof.LibMinReduce
import proofs.«117061_j1211180777498_2_alg».proof.Proof.LibMaxReduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Glue

open Idealize.ShloMosaic Idealize.ShloMosaic.ValueIdx Cert.KernelIdeal Cert.KernelIdeal.Gen Cert.Spec Cert.GroupExtrema

variable {F : FTy → Type} [FloatOps F]

/-! ## The operations, as one term each -/

/-- Row 0 of a [16, 4096] array, as a vector. -/
def row0 (A : FVec F S16x4096 .f32) : FVec F S4096 .f32 :=
  shapeCast S4096 (extractStridedSlice S1x4096 ![0, 0] A slices_S16x4096_S1x4096_0_0) shapeCasts_S1x4096_S4096

/-- Row 8 of a [16, 4096] array, as a vector. -/
def row8 (A : FVec F S16x4096 .f32) : FVec F S4096 .f32 :=
  shapeCast S4096 (extractStridedSlice S1x4096 ![8, 0] A slices_S16x4096_S1x4096_8_0) shapeCasts_S1x4096_S4096

/-- The 32 group minima from the array of half-column minima. -/
def grpMin (A : FVec F S16x4096 .f32) : FVec F S32 .f32 :=
  Host.reduce FloatOps.minimumf (shapeCast S32x128 (minimumf (row0 A) (row8 A)) shapeCasts_S4096_S32x128)
    (constant S_ .f32 0x7F800000#32) reducesTo_S32x128_S32_d1 h_S_

/-- The 32 group maxima from the array of half-column maxima. -/
def grpMax (B : FVec F S16x4096 .f32) : FVec F S32 .f32 :=
  Host.reduce FloatOps.maximumf (shapeCast S32x128 (maximumf (row0 B) (row8 B)) shapeCasts_S4096_S32x128)
    (constant S_ .f32 0xFF800000#32) reducesTo_S32x128_S32_d1 h_S_

/-- The 32 scales. -/
def scaleVec (mn mx : FVec F S32 .f32) : FVec F S32 .f32 :=
  Host.divf (subf (select (cmpf .oeq mx mn) (addf mn (broadcastInDim S32 ![] bcast_S_S32 (constant S_ .f32 0x3727C5AC#32))) mx) mn)
    (broadcastInDim S32 ![] bcast_S_S32 (constant S_ .f32 0x437F0000#32))

/-- The 32 zero points. -/
def zpVec (mn mx : FVec F S32 .f32) : FVec F S32 .f32 :=
  subf (broadcastInDim S32 ![] bcast_S_S32 (constant S_ .f32 0x00000000#32)) (Host.roundeven (Host.divf mn (scaleVec mn mx)))

/-- A per-group vector repeated over each group's 128 columns, as a [1, 4096] row. -/
def spread (v : FVec F S32 .f32) : FVec F S1x4096 .f32 :=
  shapeCast S1x4096 (shapeCast S4096 (broadcastInDim S32x128 ![0] bcast_S32_S32x128_0 v) shapeCasts_S32x128_S4096)
    shapeCasts_S4096_S1x4096

/-! ## Read at an index -/

theorem row0_apply (A : FVec Ideal S16x4096 .f32) (j : Fin 4096) : row0 A (ix1 j) = A (ix2 (0 : Fin 16) j) := by
  unfold row0
  exact (shapeCast_1a_a_apply _ _ j).trans (slice2_axis0_apply 0 A _ (0 : Fin 1) j (0 : Fin 16) rfl)

theorem row8_apply (A : FVec Ideal S16x4096 .f32) (j : Fin 4096) : row8 A (ix1 j) = A (ix2 (8 : Fin 16) j) := by
  unfold row8
  exact (shapeCast_1a_a_apply _ _ j).trans (slice2_axis0_apply 8 A _ (0 : Fin 1) j (8 : Fin 16) rfl)

theorem hred : S32x128.Reduces [1] S32 := by decide

/-- Inserting lane `l` after group `g`: the index `(g, l)`. -/
theorem lift_lane (g : Fin 32) (l : Fin 128) : hred.lift (ix1 g) l = ix2 g l := by
  funext c
  apply Fin.ext
  match c with
  | ⟨0, _⟩ => rfl
  | ⟨1, _⟩ => rfl

/-- A [4096] vector cast to [32, 128] reads at `(g, l)` the vector at column `128·g + l`. -/
theorem regroup_apply (v : FVec Ideal S4096 .f32) (g : Fin 32) (l : Fin 128) :
    shapeCast S32x128 v shapeCasts_S4096_S32x128 (ix2 g l) = v (ix1 (colOf g l)) :=
  shapeCast_apply v shapeCasts_S4096_S32x128 (ix2 g l) (ix1 (colOf g l))
    (by rewrite [Shape.rowMajor_val_one, Shape.rowMajor_val_two]; rfl)

/-- A group's minimum: the infimum over its 128 columns of the smaller of rows 0 and 8. -/
theorem grpMin_apply (A : FVec Ideal S16x4096 .f32) (g : Fin 32) :
    grpMin A (ix1 g) = ⨅ l : Fin 128, min (A (ix2 (0 : Fin 16) (colOf g l))) (A (ix2 (8 : Fin 16) (colOf g l))) := by
  unfold grpMin
  refine (Host.reduce_eq_fold_single FloatOps.minimumf _ _ reducesTo_S32x128_S32_d1 hred h_S_ (ix1 g)).trans ?_
  show (Finset.univ : Finset (Fin 128)).fold min (Ideal.ofBits .f32 0x7F800000#32)
    (fun l : Fin 128 => shapeCast S32x128 (minimumf (row0 A) (row8 A)) shapeCasts_S4096_S32x128 (hred.lift (ix1 g) l)) = _
  rw [Cert.LibMinReduce.ofBits_inf, Cert.LibMinReduce.fold_min_top]
  refine iInf_congr fun l => ?_
  rw [lift_lane, regroup_apply]
  show min (row0 A (ix1 (colOf g l))) (row8 A (ix1 (colOf g l))) = _
  rw [row0_apply, row8_apply]

/-- A group's maximum: the supremum over its 128 columns of the larger of rows 0 and 8. -/
theorem grpMax_apply (B : FVec Ideal S16x4096 .f32) (g : Fin 32) :
    grpMax B (ix1 g) = ⨆ l : Fin 128, max (B (ix2 (0 : Fin 16) (colOf g l))) (B (ix2 (8 : Fin 16) (colOf g l))) := by
  unfold grpMax
  refine (Host.reduce_eq_fold_single FloatOps.maximumf _ _ reducesTo_S32x128_S32_d1 hred h_S_ (ix1 g)).trans ?_
  show (Finset.univ : Finset (Fin 128)).fold max (Ideal.ofBits .f32 0xFF800000#32)
    (fun l : Fin 128 => shapeCast S32x128 (maximumf (row0 B) (row8 B)) shapeCasts_S4096_S32x128 (hred.lift (ix1 g) l)) = _
  rw [Cert.LibMaxReduce.ofBits_neg_inf, Cert.LibMaxReduce.fold_max_bot]
  refine iSup_congr fun l => ?_
  rw [lift_lane, regroup_apply]
  show max (row0 B (ix1 (colOf g l))) (row8 B (ix1 (colOf g l))) = _
  rw [row0_apply, row8_apply]

/-- A scalar constant broadcast to the 32 groups reads everywhere as the constant. -/
theorem bcast_const_apply (w : BitVec 32) (i : S32.Idx) :
    broadcastInDim S32 ![] bcast_S_S32 (constant (F := Ideal) S_ .f32 w) i = FloatOps.ofBits (F := Ideal) .f32 w :=
  broadcastInDim_apply _ bcast_S_S32 _ i ix0 (fun a => a.elim0)

theorem scaleVec_apply (mn mx : FVec Ideal S32 .f32) (i : S32.Idx) : scaleVec mn mx i = scaleOf (mn i) (mx i) := by
  unfold scaleVec scaleOf
  show FloatOps.hostDivf (FloatOps.subf (Scalar.select (FloatOps.cmpf .oeq (mx i) (mn i))
      (FloatOps.addf (mn i) (broadcastInDim S32 ![] bcast_S_S32 (constant (F := Ideal) S_ .f32 0x3727C5AC#32) i)) (mx i)) (mn i))
    (broadcastInDim S32 ![] bcast_S_S32 (constant (F := Ideal) S_ .f32 0x437F0000#32) i) = _
  rw [bcast_const_apply, bcast_const_apply]

theorem zpVec_apply (mn mx : FVec Ideal S32 .f32) (i : S32.Idx) : zpVec mn mx i = zpOf (mn i) (mx i) := by
  unfold zpVec zpOf
  show FloatOps.subf (broadcastInDim S32 ![] bcast_S_S32 (constant (F := Ideal) S_ .f32 0x00000000#32) i)
    (FloatOps.hostUnary .roundeven (FloatOps.hostDivf (mn i) (scaleVec mn mx i))) = _
  rw [bcast_const_apply, scaleVec_apply]

/-- The repeated row reads at column `j` the vector at `j`'s group. -/
theorem spread_apply (v : FVec Ideal S32 .f32) (j : Fin 4096) : spread v (ix2 (0 : Fin 1) j) = v (ix1 (groupOf j)) := by
  unfold spread
  refine (shapeCast_a_1a_apply _ _ 0 j).trans ?_
  have hj := j.isLt
  refine (shapeCast_apply _ shapeCasts_S32x128_S4096 (ix1 j) (ix2 (groupOf j) (⟨j.val % 128, Nat.mod_lt _ (by decide)⟩ : Fin 128))
    (by rewrite [Shape.rowMajor_val_two, Shape.rowMajor_val_one]; show j.val / 128 * 128 + j.val % 128 = j.val; omega)).trans ?_
  exact broadcastInDim_apply _ bcast_S32_S32x128_0 v _ (ix1 (groupOf j)) (fun a => match a with
    | ⟨0, _⟩ => by show j.val / 128 = if (32 : Nat) = 1 then 0 else j.val / 128; rw [if_neg (by decide)])

/-! ## From the first pass's arrays to the scale and zero point of a column -/

theorem grpMin_minArr (Y : Mat) (g : Fin 32) : grpMin (F := Ideal) (minArr Y) (ix1 g) = gmin Y g := by
  rw [grpMin_apply]
  simp only [minArr_row0, minArr_row8]
  exact gmin_of_halves Y g

theorem grpMax_maxArr (Y : Mat) (g : Fin 32) : grpMax (F := Ideal) (maxArr Y) (ix1 g) = gmax Y g := by
  rw [grpMax_apply]
  simp only [maxArr_row0, maxArr_row8]
  exact gmax_of_halves Y g

/-- The scale row at column `j` is the scale of `j`'s group. -/
theorem scaleRow_apply (Y : Mat) (j : Fin 4096) :
    spread (scaleVec (grpMin (F := Ideal) (minArr Y)) (grpMax (maxArr Y))) (ix2 (0 : Fin 1) j) = scaleAt Y j := by
  rw [spread_apply, scaleVec_apply, grpMin_minArr, grpMax_maxArr]
  rfl

/-- The zero-point row at column `j` is the zero point of `j`'s group. -/
theorem zpRow_apply (Y : Mat) (j : Fin 4096) :
    spread (zpVec (grpMin (F := Ideal) (minArr Y)) (grpMax (maxArr Y))) (ix2 (0 : Fin 1) j) = zpAt Y j := by
  rw [spread_apply, zpVec_apply, grpMin_minArr, grpMax_maxArr]
  rfl

end Cert.KernelIdeal.Glue

end
-- ==== Proof.KernelRun.lean ====
/-
  The kernel's run, with its two result arrays named.

  Every unscoped buffer ends at the fold of the program's host stretches and regions over the launch memory. Walking
  that fold back from each result buffer: the result is the [4, 4096, 4096] recast of the second pass's result array;
  the second pass read the recast argument together with the scale and zero-point rows; those rows were computed by the
  host operations from the first pass's two result arrays; and the first pass read the recast argument. With the value
  of each pass and of the host operations in between, each result is the recast of the whole quantize-dequantize
  function of the recast argument.
-/
import proofs.«117061_j1211180777498_2_alg».proof.Proof.Gen.KernelIdeal.Frame
import proofs.«117061_j1211180777498_2_alg».proof.Proof.Pass1
import proofs.«117061_j1211180777498_2_alg».proof.Proof.Pass2
import proofs.«117061_j1211180777498_2_alg».proof.Proof.Pass1V
import proofs.«117061_j1211180777498_2_alg».proof.Proof.Pass2V
import proofs.«117061_j1211180777498_2_alg».proof.Proof.Glue
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.Spec Cert.GroupExtrema

section Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with both result buffers at the fold's contents and the
    arguments as launched. -/
theorem run_fold : θ_run defs (onTc (τ := τ) (main (F := F))) ⟨m, fun _ => 0, ρ⟩ (fun r => ∀ c : Dev nD,
      r.2.mem ((c.tc : Thread nD τ).loc main_v34) = W17 m ρ c (Proc.devRef .tc main_v34)
      ∧ r.2.mem ((c.tc : Thread nD τ).loc main_v69) = W17 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v34 (by decide)),
       h c _ (mem_uc main_v69 (by decide)),
       (h c _ (mem_uc main_arg0 (by decide))).trans (W17_main_arg0 m ρ c),
       (h c _ (mem_uc main_arg1 (by decide))).trans (W17_main_arg1 m ρ c)⟩)

end Fold

section Values

variable (m : (ℓ : Loc nD τ sig) → Buf (Elt Ideal) ℓ) (ρ : Dev nD → PrngReg)

/-! ## The first argument -/

/-- The first argument, recast to [16384, 4096]. -/
abbrev X0 (c : Dev nD) : Mat :=
  shapeCast S16384x4096 (m ((c.tc : Thread nD τ).loc main_arg0) : (⟨S4x4096x4096, .f32⟩ : BufTy).Contents (Elt Ideal))
    shapeCasts_S4x4096x4096_S16384x4096

/-- The first pass is entered with the recast argument in its rows' array. -/
theorem keys_entry (c : Dev nD) : V1 m ρ c main_v0 = X0 m c := by
  show StableHlo.after hostOps0 (W0 m ρ c) (Proc.devRef .tc main_v0) = _
  dsimp only [hostOps0]
  after_results <;> rfl

/-- The first pass leaves, in its first result array, the half-column infima of the recast argument. -/
theorem keys_min (c : Dev nD) : W2 m ρ c (Proc.devRef .tc main_v1_0) = minArr (X0 m c) := by
  refine (W2_arr m ρ c 1).trans ?_
  rw [Pass1.finalMin (V1 m ρ) c]
  show minArr (V1 m ρ c main_v0) = _
  rw [keys_entry]

/-- The first pass leaves, in its second result array, the half-column suprema of the recast argument. -/
theorem keys_max (c : Dev nD) : W2 m ρ c (Proc.devRef .tc main_v1_1) = maxArr (X0 m c) := by
  refine (W2_arr m ρ c 2).trans ?_
  rw [Pass1.finalMax (V1 m ρ) c]
  show maxArr (V1 m ρ c main_v0) = _
  rw [keys_entry]

/-- The first pass leaves its rows' array as it found it: the recast argument. -/
theorem keys_rows (c : Dev nD) : W2 m ρ c (Proc.devRef .tc main_v0) = X0 m c := by
  refine (W2_arr m ρ c 0).trans ?_
  refine ((dat0 (V1 m ρ) c).arrAt_in 0 rfl _).trans ?_
  exact (A_eq0 (V1 m ρ) c 0).trans (keys_entry m ρ c)

/-- The host operations between the passes do not write the rows' array. -/
theorem keys_rows2 (c : Dev nD) : V7 m ρ c main_v0 = X0 m c := by
  refine Eq.trans ?_ (keys_rows m ρ c)
  show StableHlo.after hostOps1_4 (StableHlo.after hostOps1_3 (StableHlo.after hostOps1_2 (StableHlo.after hostOps1_1 (StableHlo.after hostOps1 (W2 m ρ c)))))
    (Proc.devRef .tc main_v0) = _
  dsimp only [hostOps1_4, hostOps1_3, hostOps1_2, hostOps1_1, hostOps1]
  after_results <;> rfl

/-- The host operations between the passes write the scale row from the first pass's two result arrays. -/
theorem keys_scaleRow (c : Dev nD) : V7 m ρ c main_v29
    = Glue.spread (F := Ideal) (Glue.scaleVec (F := Ideal) (Glue.grpMin (F := Ideal) (W2 m ρ c (Proc.devRef .tc main_v1_0))) (Glue.grpMax (F := Ideal) (W2 m ρ c (Proc.devRef .tc main_v1_1)))) := by
  show StableHlo.after hostOps1_4 (StableHlo.after hostOps1_3 (StableHlo.after hostOps1_2 (StableHlo.after hostOps1_1 (StableHlo.after hostOps1 (W2 m ρ c)))))
    (Proc.devRef .tc main_v29) = _
  unfold Glue.spread Glue.scaleVec Glue.grpMin Glue.grpMax Glue.row0 Glue.row8
  dsimp only [hostOps1_4, hostOps1_3, hostOps1_2, hostOps1_1, hostOps1]
  after_results <;> rfl

/-- The host operations between the passes write the zero-point row from the first pass's two result arrays. -/
theorem keys_zpRow (c : Dev nD) : V7 m ρ c main_v32
    = Glue.spread (F := Ideal) (Glue.zpVec (F := Ideal) (Glue.grpMin (F := Ideal) (W2 m ρ c (Proc.devRef .tc main_v1_0))) (Glue.grpMax (F := Ideal) (W2 m ρ c (Proc.devRef .tc main_v1_1)))) := by
  show StableHlo.after hostOps1_4 (StableHlo.after hostOps1_3 (StableHlo.after hostOps1_2 (StableHlo.after hostOps1_1 (StableHlo.after hostOps1 (W2 m ρ c)))))
    (Proc.devRef .tc main_v32) = _
  unfold Glue.spread Glue.zpVec Glue.scaleVec Glue.grpMin Glue.grpMax Glue.row0 Glue.row8
  dsimp only [hostOps1_4, hostOps1_3, hostOps1_2, hostOps1_1, hostOps1]
  after_results <;> rfl

/-- So the second pass leaves the whole quantize-dequantize function of the recast argument. -/
theorem keys_result (c : Dev nD) : W8 m ρ c (Proc.devRef .tc main_v33) = QD (X0 m c) := by
  refine (W8_arr m ρ c 3).trans ?_
  rw [Pass2.final (V7 m ρ) c, keys_rows2, keys_scaleRow, keys_zpRow, keys_min, keys_max]
  exact applyRows_eq_QD _ _ _ (Glue.scaleRow_apply _) (Glue.zpRow_apply _)

/-! ## The second argument -/

/-- The second argument, recast to [16384, 4096]. -/
abbrev X1 (c : Dev nD) : Mat :=
  shapeCast S16384x4096 (m ((c.tc : Thread nD τ).loc main_arg1) : (⟨S4x4096x4096, .f32⟩ : BufTy).Contents (Elt Ideal))
    shapeCasts_S4x4096x4096_S16384x4096

/-- The first pass is entered with the recast argument in its rows' array. -/
theorem vals_entry (c : Dev nD) : V9 m ρ c main_v35 = X1 m c := by
  have harg : W8 m ρ c (Proc.devRef .tc main_arg1) = m ((c.tc : Thread nD τ).loc main_arg1) := by
    refine (W8_of_ne m ρ c main_arg1 (by decide)).trans ?_
    have h7 : W7 m ρ c (Proc.devRef .tc main_arg1) = W2 m ρ c (Proc.devRef .tc main_arg1) := by
      show StableHlo.after hostOps1_4 (StableHlo.after hostOps1_3 (StableHlo.after hostOps1_2 (StableHlo.after hostOps1_1 (StableHlo.after hostOps1 (W2 m ρ c)))))
        (Proc.devRef .tc main_arg1) = _
      dsimp only [hostOps1_4, hostOps1_3, hostOps1_2, hostOps1_1, hostOps1]
      after_results <;> rfl
    refine h7.trans ((W2_of_ne m ρ c main_arg1 (by decide)).trans ?_)
    show StableHlo.after hostOps0 (W0 m ρ c) (Proc.devRef .tc main_arg1) = _
    dsimp only [hostOps0]
    after_results <;> rfl
  show StableHlo.after hostOps2 (W8 m ρ c) (Proc.devRef .tc main_v35) = _
  dsimp only [hostOps2]
  after_results
  rw [harg]
  rfl

/-- The first pass leaves, in its first result array, the half-column infima of the recast argument. -/
theorem vals_min (c : Dev nD) : W10 m ρ c (Proc.devRef .tc main_v36_0) = minArr (X1 m c) := by
  refine (W10_arr m ρ c 1).trans ?_
  rw [Pass1V.finalMin (V9 m ρ) c]
  show minArr (V9 m ρ c main_v35) = _
  rw [vals_entry]

/-- The first pass leaves, in its second result array, the half-column suprema of the recast argument. -/
theorem vals_max (c : Dev nD) : W10 m ρ c (Proc.devRef .tc main_v36_1) = maxArr (X1 m c) := by
  refine (W10_arr m ρ c 2).trans ?_
  rw [Pass1V.finalMax (V9 m ρ) c]
  show maxArr (V9 m ρ c main_v35) = _
  rw [vals_entry]

/-- The first pass leaves its rows' array as it found it: the recast argument. -/
theorem vals_rows (c : Dev nD) : W10 m ρ c (Proc.devRef .tc main_v35) = X1 m c := by
  refine (W10_arr m ρ c 0).trans ?_
  refine ((dat2 (V9 m ρ) c).arrAt_in 0 rfl _).trans ?_
  exact (A_eq2 (V9 m ρ) c 0).trans (vals_entry m ρ c)

/-- The host operations between the passes do not write the rows' array. -/
theorem vals_rows2 (c : Dev nD) : V15 m ρ c main_v35 = X1 m c := by
  refine Eq.trans ?_ (vals_rows m ρ c)
  show StableHlo.after hostOps3_4 (StableHlo.after hostOps3_3 (StableHlo.after hostOps3_2 (StableHlo.after hostOps3_1 (StableHlo.after hostOps3 (W10 m ρ c)))))
    (Proc.devRef .tc main_v35) = _
  dsimp only [hostOps3_4, hostOps3_3, hostOps3_2, hostOps3_1, hostOps3]
  after_results <;> rfl

/-- The host operations between the passes write the scale row from the first pass's two result arrays. -/
theorem vals_scaleRow (c : Dev nD) : V15 m ρ c main_v64
    = Glue.spread (F := Ideal) (Glue.scaleVec (F := Ideal) (Glue.grpMin (F := Ideal) (W10 m ρ c (Proc.devRef .tc main_v36_0))) (Glue.grpMax (F := Ideal) (W10 m ρ c (Proc.devRef .tc main_v36_1)))) := by
  show StableHlo.after hostOps3_4 (StableHlo.after hostOps3_3 (StableHlo.after hostOps3_2 (StableHlo.after hostOps3_1 (StableHlo.after hostOps3 (W10 m ρ c)))))
    (Proc.devRef .tc main_v64) = _
  unfold Glue.spread Glue.scaleVec Glue.grpMin Glue.grpMax Glue.row0 Glue.row8
  dsimp only [hostOps3_4, hostOps3_3, hostOps3_2, hostOps3_1, hostOps3]
  after_results <;> rfl

/-- The host operations between the passes write the zero-point row from the first pass's two result arrays. -/
theorem vals_zpRow (c : Dev nD) : V15 m ρ c main_v67
    = Glue.spread (F := Ideal) (Glue.zpVec (F := Ideal) (Glue.grpMin (F := Ideal) (W10 m ρ c (Proc.devRef .tc main_v36_0))) (Glue.grpMax (F := Ideal) (W10 m ρ c (Proc.devRef .tc main_v36_1)))) := by
  show StableHlo.after hostOps3_4 (StableHlo.after hostOps3_3 (StableHlo.after hostOps3_2 (StableHlo.after hostOps3_1 (StableHlo.after hostOps3 (W10 m ρ c)))))
    (Proc.devRef .tc main_v67) = _
  unfold Glue.spread Glue.zpVec Glue.scaleVec Glue.grpMin Glue.grpMax Glue.row0 Glue.row8
  dsimp only [hostOps3_4, hostOps3_3, hostOps3_2, hostOps3_1, hostOps3]
  after_results <;> rfl

/-- So the second pass leaves the whole quantize-dequantize function of the recast argument. -/
theorem vals_result (c : Dev nD) : W16 m ρ c (Proc.devRef .tc main_v68) = QD (X1 m c) := by
  refine (W16_arr m ρ c 3).trans ?_
  rw [Pass2V.final (V15 m ρ) c, vals_rows2, vals_scaleRow, vals_zpRow, vals_min, vals_max]
  exact applyRows_eq_QD _ _ _ (Glue.scaleRow_apply _) (Glue.zpRow_apply _)

/-! ## The two results -/

/-- The first result buffer ends at the recast of the whole function of the recast first argument. -/
theorem final_keys (c : Dev nD) : W17 m ρ c (Proc.devRef .tc main_v34)
    = shapeCast S4x4096x4096 (QD (X0 m c)) shapeCasts_S16384x4096_S4x4096x4096 := by
  have h17 : W17 m ρ c (Proc.devRef .tc main_v34) = W16 m ρ c (Proc.devRef .tc main_v34) := by
    show StableHlo.after hostOps4 (W16 m ρ c) (Proc.devRef .tc main_v34) = _
    dsimp only [hostOps4]
    after_results <;> rfl
  have h15 : W15 m ρ c (Proc.devRef .tc main_v34) = W10 m ρ c (Proc.devRef .tc main_v34) := by
    show StableHlo.after hostOps3_4 (StableHlo.after hostOps3_3 (StableHlo.after hostOps3_2 (StableHlo.after hostOps3_1 (StableHlo.after hostOps3 (W10 m ρ c)))))
      (Proc.devRef .tc main_v34) = _
    dsimp only [hostOps3_4, hostOps3_3, hostOps3_2, hostOps3_1, hostOps3]
    after_results <;> rfl
  have h9 : W9 m ρ c (Proc.devRef .tc main_v34)
      = shapeCast S4x4096x4096 (W8 m ρ c (Proc.devRef .tc main_v33)) shapeCasts_S16384x4096_S4x4096x4096 := by
    show StableHlo.after hostOps2 (W8 m ρ c) (Proc.devRef .tc main_v34) = _
    dsimp only [hostOps2]
    after_results <;> rfl
  rw [h17, W16_of_ne m ρ c main_v34 (by decide), h15, W10_of_ne m ρ c main_v34 (by decide), h9, keys_result]

/-- The second result buffer ends at the recast of the whole function of the recast second argument. -/
theorem final_vals (c : Dev nD) : W17 m ρ c (Proc.devRef .tc main_v69)
    = shapeCast S4x4096x4096 (QD (X1 m c)) shapeCasts_S16384x4096_S4x4096x4096 := by
  have h17 : W17 m ρ c (Proc.devRef .tc main_v69)
      = shapeCast S4x4096x4096 (W16 m ρ c (Proc.devRef .tc main_v68)) shapeCasts_S16384x4096_S4x4096x4096 := by
    show StableHlo.after hostOps4 (W16 m ρ c) (Proc.devRef .tc main_v69) = _
    dsimp only [hostOps4]
    after_results <;> rfl
  rw [h17, vals_result]

/-- THE RUN, READ: both results at the recast of the whole function of their recast argument, the arguments unchanged. -/
theorem run : θ_run defs (onTc (τ := τ) (main (F := Ideal))) ⟨m, fun _ => 0, ρ⟩ (fun r => ∀ c : Dev nD,
      r.2.mem ((c.tc : Thread nD τ).loc main_v34) = shapeCast S4x4096x4096 (QD (X0 m c)) shapeCasts_S16384x4096_S4x4096x4096
      ∧ r.2.mem ((c.tc : Thread nD τ).loc main_v69) = shapeCast S4x4096x4096 (QD (X1 m c)) shapeCasts_S16384x4096_S4x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final_keys m ρ c), (h c).2.1.trans (final_vals m ρ c), (h c).2.2.1, (h c).2.2.2⟩)
    (run_fold m ρ)

end Values

end Cert.KernelIdeal.RunValue

end
-- ==== Proof.lean ====
/-
  The certificate of the per-group quantize-dequantize kernel against its reference.

  Both programs take two [4, 4096, 4096] arrays and return, for each, the array recast to [16384, 4096], run through
  per-group (128 consecutive columns) dynamic min/max fake-quantization and dequantization, and recast back. The
  kernel finds each column's extrema over the two halves of the rows in one grid pass (sixteen 512-row blocks per
  half, accumulated), combines the halves and each group's 128 columns on the host, and applies the quantization in
  a second grid pass; the reference reduces each group over rows and lanes at once and applies the same arithmetic.
  On the extended reals the two agree: an infimum (supremum) over rows and lanes may be taken block by block, half by
  half and column by column in any grouping — only the lattice structure is used, never finiteness — and the scale,
  zero point and per-entry arithmetic are the same operations of the same literals in both programs (the host's
  quotient and round-to-even are the kernel's functions at exact values).

  The frames of the kernel and of its idealization are the generated ones; the reference's frame is its run with the
  results dropped; the idealization rewrote nothing.
-/
import proofs.«117061_j1211180777498_2_alg».proof.Defs
import proofs.«117061_j1211180777498_2_alg».proof.Proof.Gen.Kernel
import proofs.«117061_j1211180777498_2_alg».proof.Proof.Gen.Kernel.Skeleton
import proofs.«117061_j1211180777498_2_alg».proof.Proof.Gen.Kernel.Launch
import proofs.«117061_j1211180777498_2_alg».proof.Proof.Gen.Kernel.Points
import proofs.«117061_j1211180777498_2_alg».proof.Proof.Gen.Kernel.Frame
import proofs.«117061_j1211180777498_2_alg».proof.Proof.Gen.KernelIdeal
import proofs.«117061_j1211180777498_2_alg».proof.Proof.Gen.KernelIdeal.Skeleton
import proofs.«117061_j1211180777498_2_alg».proof.Proof.Gen.KernelIdeal.Launch
import proofs.«117061_j1211180777498_2_alg».proof.Proof.Gen.KernelIdeal.Points
import proofs.«117061_j1211180777498_2_alg».proof.Proof.Gen.KernelIdeal.Frame
import proofs.«117061_j1211180777498_2_alg».proof.Proof.Gen.ReferenceIdeal
import proofs.«117061_j1211180777498_2_alg».proof.Proof.Gen.Pre_finite_inputs
import proofs.«117061_j1211180777498_2_alg».proof.Proof.RefRun
import proofs.«117061_j1211180777498_2_alg».proof.Proof.RefValue
import proofs.«117061_j1211180777498_2_alg».proof.Proof.RefValueV
import proofs.«117061_j1211180777498_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- Both programs end with each result at the recast of the whole quantize-dequantize function of the recast
    argument: the kernel by its run read through both passes, the reference by its stages read at an index. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ?_) (Cert.ReferenceIdeal.RefRun.run (F := Ideal) m' ρ')
  obtain ⟨h1, h2, h3, h4⟩ := h c
  refine ⟨h1.trans ?_, h2.trans ?_, h3, h4⟩
  · rw [(hagree c).1]
    unfold Cert.ReferenceIdeal.ReadP.val_main_v28
    rw [Cert.ReferenceIdeal.RefValue.result_eq]
    rfl
  · rw [(hagree c).2]
    unfold Cert.ReferenceIdeal.ReadP.val_main_v57
    rw [Cert.ReferenceIdeal.RefValueV.result_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
